-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S2097152 : Shape := ⟨1, ![2097152]⟩
abbrev S131072 : Shape := ⟨1, ![131072]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S16x1 .f32) (main_arg11 : FVec F S1 .f32) (main_v33 : IVec S_ 1) : IVec S_ 1 :=
  let main_v34 : FVec F S16x1 .f32 := Host.absf main_arg10
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S32 .f32) (main_arg8 : FVec F S32x16 .f32) (main_arg9 : FVec F S16 .f32) (main_arg10 : FVec F S16x1 .f32) (main_arg11 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg7
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg8
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg9
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg10 main_arg11 main_v33

def fn {F : FTy → Type} [FloatOps F] (main_arg0 : FVec F S131072x256 .f32) (main_arg1 : IVec S2097152 32) (main_arg2 : IVec S2097152 32) (main_arg3 : IVec S131072 32) (main_arg4 : FVec F S256x64 .f32) (main_arg5 : FVec F S64 .f32) (main_arg6 : FVec F S64x32 .f32) (main_arg7 : FVec F S32 .f32) (main_arg8 : FVec F S32x16 .f32) (main_arg9 : FVec F S16 .f32) (main_arg10 : FVec F S16x1 .f32) (main_arg11 : FVec F S1 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x64 .f32 := Host.absf main_arg4
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg6
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg7 main_arg8 main_arg9 main_arg10 main_arg11 main_v13 main_v16
-- ==== Kernel.lean ====
abbrev S131072x256 : Shape := ⟨2, ![131072, 256]⟩
abbrev S2097152 : Shape := ⟨1, ![2097152]⟩
abbrev S131072 : Shape := ⟨1, ![131072]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩
abbrev S2097152x1 : Shape := ⟨2, ![2097152, 1]⟩
abbrev S131072x1 : Shape := ⟨2, ![131072, 1]⟩
abbrev S131072x64 : Shape := ⟨2, ![131072, 64]⟩
abbrev S4096x256 : Shape := ⟨2, ![4096, 256]⟩
abbrev S4096x1 : Shape := ⟨2, ![4096, 1]⟩
abbrev S4096x64 : Shape := ⟨2, ![4096, 64]⟩
abbrev S2097152x64 : Shape := ⟨2, ![2097152, 64]⟩
abbrev S1x64 : Shape := ⟨2, ![1, 64]⟩
abbrev S131072x32 : Shape := ⟨2, ![131072, 32]⟩
abbrev S4096x32 : Shape := ⟨2, ![4096, 32]⟩
abbrev S2097152x32 : Shape := ⟨2, ![2097152, 32]⟩
abbrev S1x32 : Shape := ⟨2, ![1, 32]⟩
abbrev S131072x16 : Shape := ⟨2, ![131072, 16]⟩
abbrev S4096x16 : Shape := ⟨2, ![4096, 16]⟩
abbrev S2097152x16 : Shape := ⟨2, ![2097152, 16]⟩
abbrev S1x16 : Shape := ⟨2, ![1, 16]⟩
abbrev S128x16 : Shape := ⟨2, ![128, 16]⟩
abbrev S128 : Shape := ⟨1, ![128]⟩
abbrev S128x1 : Shape := ⟨2, ![128, 1]⟩
abbrev S1x1 : Shape := ⟨2, ![1, 1]⟩

abbrev nBuf : Space → Nat
  | .hbm => 103
  | .vmem => 34
  | .smem => 0
  | _ => 0

abbrev bufTy : (tb : Table) → Fin (tcTables nBuf tb) → BufTy
  | .hbm, ⟨0, _⟩ => ⟨S131072x256, .f32⟩
  | .hbm, ⟨1, _⟩ => ⟨S2097152, .i32⟩
  | .hbm, ⟨2, _⟩ => ⟨S2097152, .i32⟩
  | .hbm, ⟨3, _⟩ => ⟨S131072, .i32⟩
  | .hbm, ⟨4, _⟩ => ⟨S256x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x1, .f32⟩
  | .hbm, ⟨11, _⟩ => ⟨S1, .f32⟩
  | .hbm, ⟨12, _⟩ => ⟨S_, .f32⟩
  | .hbm, ⟨13, _⟩ => ⟨S2097152, .f32⟩
  | .hbm, ⟨14, _⟩ => ⟨S_, .f32⟩
  | .hbm, ⟨15, _⟩ => ⟨S131072, .f32⟩
  | .hbm, ⟨16, _⟩ => ⟨S2097152x1, .i32⟩
  | .hbm, ⟨17, _⟩ => ⟨S131072, .f32⟩
  | .hbm, ⟨18, _⟩ => ⟨S_, .f32⟩
  | .hbm, ⟨19, _⟩ => ⟨S131072, .f32⟩
  | .hbm, ⟨20, _⟩ => ⟨S2097152x1, .i32⟩
  | .hbm, ⟨21, _⟩ => ⟨S131072, .f32⟩
  | .hbm, ⟨22, _⟩ => ⟨S_, .f32⟩
  | .hbm, ⟨23, _⟩ => ⟨S131072, .f32⟩
  | .hbm, ⟨24, _⟩ => ⟨S131072, .f32⟩
  | .hbm, ⟨25, _⟩ => ⟨S_, .f32⟩
  | .hbm, ⟨26, _⟩ => ⟨S131072, .f32⟩
  | .hbm, ⟨27, _⟩ => ⟨S131072, .f32⟩
  | .hbm, ⟨28, _⟩ => ⟨S131072x1, .f32⟩
  | .hbm, ⟨29, _⟩ => ⟨S_, .f32⟩
  | .hbm, ⟨30, _⟩ => ⟨S131072, .f32⟩
  | .hbm, ⟨31, _⟩ => ⟨S131072, .f32⟩
  | .hbm, ⟨32, _⟩ => ⟨S_, .f32⟩
  | .hbm, ⟨33, _⟩ => ⟨S131072, .f32⟩
  | .hbm, ⟨34, _⟩ => ⟨S131072, .f32⟩
  | .hbm, ⟨35, _⟩ => ⟨S131072x1, .f32⟩
  | .hbm, ⟨36, _⟩ => ⟨S131072x64, .f32⟩
  | .hbm, ⟨37, _⟩ => ⟨S_, .i32⟩
  | .hbm, ⟨38, _⟩ => ⟨S2097152, .i32⟩
  | .hbm, ⟨39, _⟩ => ⟨S2097152, .i1⟩
  | .hbm, ⟨40, _⟩ => ⟨S_, .i32⟩
  | .hbm, ⟨41, _⟩ => ⟨S2097152, .i32⟩
  | .hbm, ⟨42, _⟩ => ⟨S2097152, .i32⟩
  | .hbm, ⟨43, _⟩ => ⟨S2097152, .i32⟩
  | .hbm, ⟨44, _⟩ => ⟨S2097152x1, .i32⟩
  | .hbm, ⟨45, _⟩ => ⟨S2097152x64, .f32⟩
  | .hbm, ⟨46, _⟩ => ⟨S_, .f32⟩
  | .hbm, ⟨47, _⟩ => ⟨S131072x64, .f32⟩
  | .hbm, ⟨48, _⟩ => ⟨S2097152x1, .i32⟩
  | .hbm, ⟨49, _⟩ => ⟨S131072x64, .f32⟩
  | .hbm, ⟨50, _⟩ => ⟨S1x64, .f32⟩
  | .hbm, ⟨51, _⟩ => ⟨S131072x32, .f32⟩
  | .hbm, ⟨52, _⟩ => ⟨S_, .i32⟩
  | .hbm, ⟨53, _⟩ => ⟨S2097152, .i32⟩
  | .hbm, ⟨54, _⟩ => ⟨S2097152, .i1⟩
  | .hbm, ⟨55, _⟩ => ⟨S_, .i32⟩
  | .hbm, ⟨56, _⟩ => ⟨S2097152, .i32⟩
  | .hbm, ⟨57, _⟩ => ⟨S2097152, .i32⟩
  | .hbm, ⟨58, _⟩ => ⟨S2097152, .i32⟩
  | .hbm, ⟨59, _⟩ => ⟨S2097152x1, .i32⟩
  | .hbm, ⟨60, _⟩ => ⟨S2097152x32, .f32⟩
  | .hbm, ⟨61, _⟩ => ⟨S_, .f32⟩
  | .hbm, ⟨62, _⟩ => ⟨S131072x32, .f32⟩
  | .hbm, ⟨63, _⟩ => ⟨S2097152x1, .i32⟩
  | .hbm, ⟨64, _⟩ => ⟨S131072x32, .f32⟩
  | .hbm, ⟨65, _⟩ => ⟨S1x32, .f32⟩
  | .hbm, ⟨66, _⟩ => ⟨S131072x16, .f32⟩
  | .hbm, ⟨67, _⟩ => ⟨S_, .i32⟩
  | .hbm, ⟨68, _⟩ => ⟨S2097152, .i32⟩
  | .hbm, ⟨69, _⟩ => ⟨S2097152, .i1⟩
  | .hbm, ⟨70, _⟩ => ⟨S_, .i32⟩
  | .hbm, ⟨71, _⟩ => ⟨S2097152, .i32⟩
  | .hbm, ⟨72, _⟩ => ⟨S2097152, .i32⟩
  | .hbm, ⟨73, _⟩ => ⟨S2097152, .i32⟩
  | .hbm, ⟨74, _⟩ => ⟨S2097152x1, .i32⟩
  | .hbm, ⟨75, _⟩ => ⟨S2097152x16, .f32⟩
  | .hbm, ⟨76, _⟩ => ⟨S_, .f32⟩
  | .hbm, ⟨77, _⟩ => ⟨S131072x16, .f32⟩
  | .hbm, ⟨78, _⟩ => ⟨S2097152x1, .i32⟩
  | .hbm, ⟨79, _⟩ => ⟨S131072x16, .f32⟩
  | .hbm, ⟨80, _⟩ => ⟨S1x16, .f32⟩
  | .hbm, ⟨81, _⟩ => ⟨S131072x16, .f32⟩
  | .hbm, ⟨82, _⟩ => ⟨S_, .f32⟩
  | .hbm, ⟨83, _⟩ => ⟨S128x16, .f32⟩
  | .hbm, ⟨84, _⟩ => ⟨S131072x1, .i32⟩
  | .hbm, ⟨85, _⟩ => ⟨S128x16, .f32⟩
  | .hbm, ⟨86, _⟩ => ⟨S_, .f32⟩
  | .hbm, ⟨87, _⟩ => ⟨S131072, .f32⟩
  | .hbm, ⟨88, _⟩ => ⟨S_, .f32⟩
  | .hbm, ⟨89, _⟩ => ⟨S128, .f32⟩
  | .hbm, ⟨90, _⟩ => ⟨S131072x1, .i32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S128x1, .f32⟩
  | .hbm, ⟨96, _⟩ => ⟨S128x16, .f32⟩
  | .hbm, ⟨97, _⟩ => ⟨S128x16, .f32⟩
  | .hbm, ⟨98, _⟩ => ⟨S128x1, .f32⟩
  | .hbm, ⟨99, _⟩ => ⟨S1x1, .f32⟩
  | .hbm, ⟨100, _⟩ => ⟨S128x1, .f32⟩
  | .hbm, ⟨101, _⟩ => ⟨S128x1, .f32⟩
  | .hbm, ⟨102, _⟩ => ⟨S128, .f32⟩
  | .local _ .vmem, ⟨0, _⟩ => ⟨S4096x256, .f32⟩
  | .local _ .vmem, ⟨1, _⟩ => ⟨S4096x256, .f32⟩
  | .local _ .vmem, ⟨2, _⟩ => ⟨S4096x1, .f32⟩
  | .local _ .vmem, ⟨3, _⟩ => ⟨S4096x1, .f32⟩
  | .local _ .vmem, ⟨4, _⟩ => ⟨S256x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S4096x64, .f32⟩
  | .local _ .vmem, ⟨9, _⟩ => ⟨S4096x1, .f32⟩
  | .local _ .vmem, ⟨10, _⟩ => ⟨S4096x1, .f32⟩
  | .local _ .vmem, ⟨11, _⟩ => ⟨S1x64, .f32⟩
  | .local _ .vmem, ⟨12, _⟩ => ⟨S4096x1, .f32⟩
  | .local _ .vmem, ⟨13, _⟩ => ⟨S4096x1, .f32⟩
  | .local _ .vmem, ⟨14, _⟩ => ⟨S64x32, .f32⟩
  | .local _ .vmem, ⟨15, _⟩ => ⟨S4096x32, .f32⟩
  | .local _ .vmem, ⟨16, _⟩ => ⟨S4096x32, .f32⟩
  | .local _ .vmem, ⟨17, _⟩ => ⟨S4096x32, .f32⟩
  | .local _ .vmem, ⟨18, _⟩ => ⟨S4096x32, .f32⟩
  | .local _ .vmem, ⟨19, _⟩ => ⟨S4096x1, .f32⟩
  | .local _ .vmem, ⟨20, _⟩ => ⟨S4096x1, .f32⟩
  | .local _ .vmem, ⟨21, _⟩ => ⟨S1x32, .f32⟩
  | .local _ .vmem, ⟨22, _⟩ => ⟨S4096x1, .f32⟩
  | .local _ .vmem, ⟨23, _⟩ => ⟨S4096x1, .f32⟩
  | .local _ .vmem, ⟨24, _⟩ => ⟨S32x16, .f32⟩
  | .local _ .vmem, ⟨25, _⟩ => ⟨S4096x16, .f32⟩
  | .local _ .vmem, ⟨26, _⟩ => ⟨S4096x16, .f32⟩
  | .local _ .vmem, ⟨27, _⟩ => ⟨S4096x16, .f32⟩
  | .local _ .vmem, ⟨28, _⟩ => ⟨S4096x16, .f32⟩
  | .local _ .vmem, ⟨29, _⟩ => ⟨S4096x1, .f32⟩
  | .local _ .vmem, ⟨30, _⟩ => ⟨S4096x1, .f32⟩
  | .local _ .vmem, ⟨31, _⟩ => ⟨S1x16, .f32⟩
  | .local _ .vmem, ⟨32, _⟩ => ⟨S4096x16, .f32⟩
  | .local _ .vmem, ⟨33, _⟩ => ⟨S4096x16, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_6 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_7 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_c_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_11 : Ref sig .tc := ⟨.hbm, 67, rfl⟩
abbrev main_v42 : Ref sig .tc := ⟨.hbm, 68, rfl⟩
abbrev main_v43 : Ref sig .tc := ⟨.hbm, 69, rfl⟩
abbrev main_c_12 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_14 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_15 : Ref sig .tc := ⟨.hbm, 86, rfl⟩
abbrev main_v57 : Ref sig .tc := ⟨.hbm, 87, rfl⟩
abbrev main_cst_16 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_17 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S32x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S2097152 : S_.BroadcastsInDim S2097152 (![] : Fin 0 → Fin S2097152.rank)
  bcast_S_S131072 : S_.BroadcastsInDim S131072 (![] : Fin 0 → Fin S131072.rank)
  bcast_S2097152_S2097152x1_0 : S2097152.BroadcastsInDim S2097152x1 (![0] : Fin 1 → Fin S2097152x1.rank)
  bcast_S131072_S131072x1_0 : S131072.BroadcastsInDim S131072x1 (![0] : Fin 1 → Fin S131072x1.rank)
  inb_S4096x256_S4096x256_0_0 : ∀ a, (![0, 0] : Fin 2 → Nat) a + S4096x256.size a ≤ S4096x256.size a
  h_S4096x256 : 0 < S4096x256.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x256 : S4096x1.Broadcasts S4096x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S4096x64_S4096x64_0_0 : ∀ a, (![0, 0] : Fin 2 → Nat) a + S4096x64.size a ≤ S4096x64.size a
  h_S4096x64 : 0 < S4096x64.numel
  bcast_S_S131072x64 : S_.BroadcastsInDim S131072x64 (![] : Fin 0 → Fin S131072x64.rank)
  shapeCasts_S64_S1x64 : S64.ShapeCasts S1x64
  shapeCasts_S4096x64_S4096x64 : S4096x64.ShapeCasts S4096x64
  broadcasts_S4096x1_S4096x64 : S4096x1.Broadcasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x32_S64x32_0_0 : ∀ a, (![0, 0] : Fin 2 → Nat) a + S64x32.size a ≤ S64x32.size a
  h_S64x32 : 0 < S64x32.numel
  inb_S4096x32_S4096x32_0_0 : ∀ a, (![0, 0] : Fin 2 → Nat) a + S4096x32.size a ≤ S4096x32.size a
  h_S4096x32 : 0 < S4096x32.numel
  bcast_S_S131072x32 : S_.BroadcastsInDim S131072x32 (![] : Fin 0 → Fin S131072x32.rank)
  shapeCasts_S32_S1x32 : S32.ShapeCasts S1x32
  shapeCasts_S4096x32_S4096x32 : S4096x32.ShapeCasts S4096x32
  broadcasts_S4096x1_S4096x32 : S4096x1.Broadcasts S4096x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S32x16_S32x16_0_0 : ∀ a, (![0, 0] : Fin 2 → Nat) a + S32x16.size a ≤ S32x16.size a
  h_S32x16 : 0 < S32x16.numel
  inb_S4096x16_S4096x16_0_0 : ∀ a, (![0, 0] : Fin 2 → Nat) a + S4096x16.size a ≤ S4096x16.size a
  h_S4096x16 : 0 < S4096x16.numel
  bcast_S_S131072x16 : S_.BroadcastsInDim S131072x16 (![] : Fin 0 → Fin S131072x16.rank)
  shapeCasts_S16_S1x16 : S16.ShapeCasts S1x16
  shapeCasts_S4096x16_S4096x16 : S4096x16.ShapeCasts S4096x16
  broadcasts_S4096x1_S4096x16 : S4096x1.Broadcasts S4096x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  bcast_S_S128x16 : S_.BroadcastsInDim S128x16 (![] : Fin 0 → Fin S128x16.rank)
  bcast_S_S128 : S_.BroadcastsInDim S128 (![] : Fin 0 → Fin S128.rank)
  bcast_S128_S128x1_0 : S128.BroadcastsInDim S128x1 (![0] : Fin 1 → Fin S128x1.rank)
  bcast_S128x1_S128x16_0_1 : S128x1.BroadcastsInDim S128x16 (![0, 1] : Fin 2 → Fin S128x16.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  scatter_S131072_S2097152x1_S2097152_n_0_0_1_wf : ScatterDims.WF S131072 S2097152x1 S2097152 [] [0] [0] 1
  dot_S4096x256_S256x64_S4096x64_1_0_0_1_n_n_wf : DotDims.WF S4096x256 S256x64 S4096x64 [1] [0] [0] [1] [] []
  gather_S131072x64_S2097152x1_S2097152x64_1_0_n_n_0_1_164_wf : GatherDims.WF S131072x64 S2097152x1 S2097152x64 [1] [0] [] [0] [] 1 ![1, 64]
  scatter_S131072x64_S2097152x1_S2097152x64_1_0_0_1_wf : ScatterDims.WF S131072x64 S2097152x1 S2097152x64 [1] [0] [0] 1
  dot_S4096x64_S64x32_S4096x32_1_0_0_1_n_n_wf : DotDims.WF S4096x64 S64x32 S4096x32 [1] [0] [0] [1] [] []
  gather_S131072x32_S2097152x1_S2097152x32_1_0_n_n_0_1_132_wf : GatherDims.WF S131072x32 S2097152x1 S2097152x32 [1] [0] [] [0] [] 1 ![1, 32]
  scatter_S131072x32_S2097152x1_S2097152x32_1_0_0_1_wf : ScatterDims.WF S131072x32 S2097152x1 S2097152x32 [1] [0] [0] 1
  dot_S4096x32_S32x16_S4096x16_1_0_0_1_n_n_wf : DotDims.WF S4096x32 S32x16 S4096x16 [1] [0] [0] [1] [] []
  gather_S131072x16_S2097152x1_S2097152x16_1_0_n_n_0_1_116_wf : GatherDims.WF S131072x16 S2097152x1 S2097152x16 [1] [0] [] [0] [] 1 ![1, 16]
  scatter_S131072x16_S2097152x1_S2097152x16_1_0_0_1_wf : ScatterDims.WF S131072x16 S2097152x1 S2097152x16 [1] [0] [0] 1
  scatter_S128x16_S131072x1_S131072x16_1_0_0_1_wf : ScatterDims.WF S128x16 S131072x1 S131072x16 [1] [0] [0] 1
  scatter_S128_S131072x1_S131072_n_0_0_1_wf : ScatterDims.WF S128 S131072x1 S131072 [] [0] [0] 1
  dot_S128x16_S16x1_S128x1_1_0_0_1_n_n_wf : DotDims.WF S128x16 S16x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .f32 = 32 ∨ (Rect.block (s := S131072x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S131072x64.size a
  hwx0_3 : ∀ i : grid0.Coords, EltTy.bits .f32 = 32 ∨ (Rect.block (s := S131072x64) S4096x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S131072x64.size a
  hwx1_0 : ∀ i : grid1.Coords, EltTy.bits .f32 = 32 ∨ (Rect.block (s := S131072x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S131072x1.size a
  hwx1_1 : ∀ i : grid1.Coords, EltTy.bits .f32 = 32 ∨ (Rect.block (s := S131072x1) S4096x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x1.size a ≤ S131072x1.size a
  hwx1_3 : ∀ i : grid1.Coords, EltTy.bits .f32 = 32 ∨ (Rect.block (s := S131072x1) S4096x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x32.size a ≤ S131072x32.size a
  hwx1_5 : ∀ i : grid1.Coords, EltTy.bits .f32 = 32 ∨ (Rect.block (s := S131072x32) S4096x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x32.size a ≤ S131072x32.size a
  hwx2_0 : ∀ i : grid2.Coords, EltTy.bits .f32 = 32 ∨ (Rect.block (s := S131072x32) S4096x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S131072x1.size a
  hwx2_1 : ∀ i : grid2.Coords, EltTy.bits .f32 = 32 ∨ (Rect.block (s := S131072x1) S4096x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x1.size a ≤ S131072x1.size a
  hwx2_3 : ∀ i : grid2.Coords, EltTy.bits .f32 = 32 ∨ (Rect.block (s := S131072x1) S4096x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x16.size a ≤ S32x16.size a
  hwx2_4 : ∀ i : grid2.Coords, EltTy.bits .f32 = 32 ∨ (Rect.block (s := S32x16) S32x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x16.size a ≤ S131072x16.size a
  hwx2_5 : ∀ i : grid2.Coords, EltTy.bits .f32 = 32 ∨ (Rect.block (s := S131072x16) S4096x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x16.size a ≤ S131072x16.size a
  hwx3_0 : ∀ i : grid3.Coords, EltTy.bits .f32 = 32 ∨ (Rect.block (s := S131072x16) S4096x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x1.size a ≤ S131072x1.size a
  hwx3_1 : ∀ i : grid3.Coords, EltTy.bits .f32 = 32 ∨ (Rect.block (s := S131072x1) S4096x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x16.size a ≤ S131072x16.size a
  hwx3_3 : ∀ i : grid3.Coords, EltTy.bits .f32 = 32 ∨ (Rect.block (s := S131072x16) S4096x16.size (cc3_transform_3 i) (hinb3_3 i)).WholeWords (EltTy.packing .f32)

variable [Facts₀]

def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def gather_S131072x64_S2097152x1_S2097152x64_1_0_n_n_0_1_164 : GatherDims S131072x64 S2097152x1 S2097152x64 where
  offsetDims := [1]
  collapsedSliceDims := [0]
  operandBatchingDims := []
  startIndicesBatchingDims := []
  startIndexMap := [0]
  indexVectorDim := 1
  sliceSizes := ![1, 64]
  wf := gather_S131072x64_S2097152x1_S2097152x64_1_0_n_n_0_1_164_wf
def scatter_S131072x64_S2097152x1_S2097152x64_1_0_0_1 : ScatterDims S131072x64 S2097152x1 S2097152x64 where
  updateWindowDims := [1]
  insertedWindowDims := [0]
  scatterDimsToOperandDims := [0]
  indexVectorDim := 1
  wf := scatter_S131072x64_S2097152x1_S2097152x64_1_0_0_1_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def gather_S131072x32_S2097152x1_S2097152x32_1_0_n_n_0_1_132 : GatherDims S131072x32 S2097152x1 S2097152x32 where
  offsetDims := [1]
  collapsedSliceDims := [0]
  operandBatchingDims := []
  startIndicesBatchingDims := []
  startIndexMap := [0]
  indexVectorDim := 1
  sliceSizes := ![1, 32]
  wf := gather_S131072x32_S2097152x1_S2097152x32_1_0_n_n_0_1_132_wf
def scatter_S131072x32_S2097152x1_S2097152x32_1_0_0_1 : ScatterDims S131072x32 S2097152x1 S2097152x32 where
  updateWindowDims := [1]
  insertedWindowDims := [0]
  scatterDimsToOperandDims := [0]
  indexVectorDim := 1
  wf := scatter_S131072x32_S2097152x1_S2097152x32_1_0_0_1_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf
def gather_S131072x16_S2097152x1_S2097152x16_1_0_n_n_0_1_116 : GatherDims S131072x16 S2097152x1 S2097152x16 where
  offsetDims := [1]
  collapsedSliceDims := [0]
  operandBatchingDims := []
  startIndicesBatchingDims := []
  startIndexMap := [0]
  indexVectorDim := 1
  sliceSizes := ![1, 16]
  wf := gather_S131072x16_S2097152x1_S2097152x16_1_0_n_n_0_1_116_wf
def scatter_S131072x16_S2097152x1_S2097152x16_1_0_0_1 : ScatterDims S131072x16 S2097152x1 S2097152x16 where
  updateWindowDims := [1]
  insertedWindowDims := [0]
  scatterDimsToOperandDims := [0]
  indexVectorDim := 1
  wf := scatter_S131072x16_S2097152x1_S2097152x16_1_0_0_1_wf
def scatter_S128x16_S131072x1_S131072x16_1_0_0_1 : ScatterDims S128x16 S131072x1 S131072x16 where
  updateWindowDims := [1]
  insertedWindowDims := [0]
  scatterDimsToOperandDims := [0]
  indexVectorDim := 1
  wf := scatter_S128x16_S131072x1_S131072x16_1_0_0_1_wf
def scatter_S128_S131072x1_S131072_n_0_0_1 : ScatterDims S128 S131072x1 S131072 where
  updateWindowDims := []
  insertedWindowDims := [0]
  scatterDimsToOperandDims := [0]
  indexVectorDim := 1
  wf := scatter_S128_S131072x1_S131072_n_0_0_1_wf
def dot_S128x16_S16x1_S128x1_1_0_0_1_n_n : DotDims S128x16 S16x1 S128x1 where
  lhsContracting := [1]
  rhsContracting := [0]
  lhsNonContracting := [0]
  rhsNonContracting := [1]
  lhsBatch := []
  rhsBatch := []
  wf := dot_S128x16_S16x1_S128x1_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S4096x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S4096x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S4096x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S4096x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S32x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S4096x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S4096x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S4096x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S4096x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S131072x256 : Shape := ⟨2, ![131072, 256]⟩
abbrev S2097152 : Shape := ⟨1, ![2097152]⟩
abbrev S131072 : Shape := ⟨1, ![131072]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩
abbrev S2097152x1 : Shape := ⟨2, ![2097152, 1]⟩
abbrev S131072x1 : Shape := ⟨2, ![131072, 1]⟩
abbrev S131072x64 : Shape := ⟨2, ![131072, 64]⟩
abbrev S2097152x64 : Shape := ⟨2, ![2097152, 64]⟩
abbrev S1x64 : Shape := ⟨2, ![1, 64]⟩
abbrev S131072x32 : Shape := ⟨2, ![131072, 32]⟩
abbrev S2097152x32 : Shape := ⟨2, ![2097152, 32]⟩
abbrev S1x32 : Shape := ⟨2, ![1, 32]⟩
abbrev S131072x16 : Shape := ⟨2, ![131072, 16]⟩
abbrev S2097152x16 : Shape := ⟨2, ![2097152, 16]⟩
abbrev S1x16 : Shape := ⟨2, ![1, 16]⟩
abbrev S128x16 : Shape := ⟨2, ![128, 16]⟩
abbrev S128 : Shape := ⟨1, ![128]⟩
abbrev S128x1 : Shape := ⟨2, ![128, 1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S131072x256, .f32⟩
  | 1 => ⟨S2097152, .i32⟩
  | 2 => ⟨S2097152, .i32⟩
  | 3 => ⟨S131072, .i32⟩
  | 4 => ⟨S256x64, .f32⟩
  | 5 => ⟨S64, .f32⟩
  | 6 => ⟨S64x32, .f32⟩
  | 7 => ⟨S32, .f32⟩
  | 8 => ⟨S32x16, .f32⟩
  | 9 => ⟨S16, .f32⟩
  | 10 => ⟨S16x1, .f32⟩
  | 11 => ⟨S1, .f32⟩
  | 12 => ⟨S_, .f32⟩
  | 13 => ⟨S2097152, .f32⟩
  | 14 => ⟨S_, .f32⟩
  | 15 => ⟨S131072, .f32⟩
  | 16 => ⟨S2097152x1, .i32⟩
  | 17 => ⟨S131072, .f32⟩
  | 18 => ⟨S_, .f32⟩
  | 19 => ⟨S131072, .f32⟩
  | 20 => ⟨S2097152x1, .i32⟩
  | 21 => ⟨S131072, .f32⟩
  | 22 => ⟨S_, .f32⟩
  | 23 => ⟨S131072, .f32⟩
  | 24 => ⟨S131072, .f32⟩
  | 25 => ⟨S_, .f32⟩
  | 26 => ⟨S131072, .f32⟩
  | 27 => ⟨S131072, .f32⟩
  | 28 => ⟨S131072x1, .f32⟩
  | 29 => ⟨S_, .f32⟩
  | 30 => ⟨S131072, .f32⟩
  | 31 => ⟨S131072, .f32⟩
  | 32 => ⟨S_, .f32⟩
  | 33 => ⟨S131072, .f32⟩
  | 34 => ⟨S131072, .f32⟩
  | 35 => ⟨S131072x1, .f32⟩
  | 36 => ⟨S131072x256, .f32⟩
  | 37 => ⟨S131072x256, .f32⟩
  | 38 => ⟨S131072x64, .f32⟩
  | 39 => ⟨S_, .i32⟩
  | 40 => ⟨S2097152, .i32⟩
  | 41 => ⟨S2097152, .i1⟩
  | 42 => ⟨S_, .i32⟩
  | 43 => ⟨S2097152, .i32⟩
  | 44 => ⟨S2097152, .i32⟩
  | 45 => ⟨S2097152, .i32⟩
  | 46 => ⟨S2097152x1, .i32⟩
  | 47 => ⟨S2097152x64, .f32⟩
  | 48 => ⟨S_, .f32⟩
  | 49 => ⟨S131072x64, .f32⟩
  | 50 => ⟨S2097152x1, .i32⟩
  | 51 => ⟨S131072x64, .f32⟩
  | 52 => ⟨S131072x64, .f32⟩
  | 53 => ⟨S131072x64, .f32⟩
  | 54 => ⟨S1x64, .f32⟩
  | 55 => ⟨S131072x64, .f32⟩
  | 56 => ⟨S131072x64, .f32⟩
  | 57 => ⟨S_, .f32⟩
  | 58 => ⟨S131072x64, .f32⟩
  | 59 => ⟨S131072x64, .f32⟩
  | 60 => ⟨S131072x64, .f32⟩
  | 61 => ⟨S131072x64, .f32⟩
  | 62 => ⟨S131072x32, .f32⟩
  | 63 => ⟨S_, .i32⟩
  | 64 => ⟨S2097152, .i32⟩
  | 65 => ⟨S2097152, .i1⟩
  | 66 => ⟨S_, .i32⟩
  | 67 => ⟨S2097152, .i32⟩
  | 68 => ⟨S2097152, .i32⟩
  | 69 => ⟨S2097152, .i32⟩
  | 70 => ⟨S2097152x1, .i32⟩
  | 71 => ⟨S2097152x32, .f32⟩
  | 72 => ⟨S_, .f32⟩
  | 73 => ⟨S131072x32, .f32⟩
  | 74 => ⟨S2097152x1, .i32⟩
  | 75 => ⟨S131072x32, .f32⟩
  | 76 => ⟨S131072x32, .f32⟩
  | 77 => ⟨S131072x32, .f32⟩
  | 78 => ⟨S1x32, .f32⟩
  | 79 => ⟨S131072x32, .f32⟩
  | 80 => ⟨S131072x32, .f32⟩
  | 81 => ⟨S_, .f32⟩
  | 82 => ⟨S131072x32, .f32⟩
  | 83 => ⟨S131072x32, .f32⟩
  | 84 => ⟨S131072x32, .f32⟩
  | 85 => ⟨S131072x32, .f32⟩
  | 86 => ⟨S131072x16, .f32⟩
  | 87 => ⟨S_, .i32⟩
  | 88 => ⟨S2097152, .i32⟩
  | 89 => ⟨S2097152, .i1⟩
  | 90 => ⟨S_, .i32⟩
  | 91 => ⟨S2097152, .i32⟩
  | 92 => ⟨S2097152, .i32⟩
  | 93 => ⟨S2097152, .i32⟩
  | 94 => ⟨S2097152x1, .i32⟩
  | 95 => ⟨S2097152x16, .f32⟩
  | 96 => ⟨S_, .f32⟩
  | 97 => ⟨S131072x16, .f32⟩
  | 98 => ⟨S2097152x1, .i32⟩
  | 99 => ⟨S131072x16, .f32⟩
  | 100 => ⟨S131072x16, .f32⟩
  | 101 => ⟨S131072x16, .f32⟩
  | 102 => ⟨S1x16, .f32⟩
  | 103 => ⟨S131072x16, .f32⟩
  | 104 => ⟨S131072x16, .f32⟩
  | 105 => ⟨S_, .f32⟩
  | 106 => ⟨S131072x16, .f32⟩
  | 107 => ⟨S131072x16, .f32⟩
  | 108 => ⟨S_, .f32⟩
  | 109 => ⟨S128x16, .f32⟩
  | 110 => ⟨S131072x1, .i32⟩
  | 111 => ⟨S128x16, .f32⟩
  | 112 => ⟨S_, .f32⟩
  | 113 => ⟨S131072, .f32⟩
  | 114 => ⟨S_, .f32⟩
  | 115 => ⟨S128, .f32⟩
  | 116 => ⟨S131072x1, .i32⟩
  | 117 => ⟨S128, .f32⟩
  | 118 => ⟨S_, .f32⟩
  | 119 => ⟨S128, .f32⟩
  | 120 => ⟨S128, .f32⟩
  | 121 => ⟨S128x1, .f32⟩
  | 122 => ⟨S128x16, .f32⟩
  | 123 => ⟨S128x16, .f32⟩
  | 124 => ⟨S128x1, .f32⟩
  | 125 => ⟨S1x1, .f32⟩
  | 126 => ⟨S128x1, .f32⟩
  | 127 => ⟨S128x1, .f32⟩
  | _ => ⟨S131072x256, .f32⟩

abbrev hbmTy0_1 (i : Nat) : BufTy := match i % 128 with
  | 0 => ⟨S128, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call0_cst : Ref sig .tc := ⟨.hbm, 57, rfl⟩
abbrev main_call0_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_cst : Ref sig .tc := ⟨.hbm, 81, rfl⟩
abbrev main_call1_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_c_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_call2_cst : Ref sig .tc := ⟨.hbm, 105, rfl⟩
abbrev main_call2_v0 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_15 : Ref sig .tc := ⟨.hbm, 112, rfl⟩
abbrev main_v77 : Ref sig .tc := ⟨.hbm, 113, rfl⟩
abbrev main_cst_16 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_17 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S_S131072 : S_.BroadcastsInDim S131072 (![] : Fin 0 → Fin S131072.rank)
  bcast_S2097152_S2097152x1_0 : S2097152.BroadcastsInDim S2097152x1 (![0] : Fin 1 → Fin S2097152x1.rank)
  bcast_S131072_S131072x1_0 : S131072.BroadcastsInDim S131072x1 (![0] : Fin 1 → Fin S131072x1.rank)
  bcast_S131072x1_S131072x256_0_1 : S131072x1.BroadcastsInDim S131072x256 (![0, 1] : Fin 2 → Fin S131072x256.rank)
  bcast_S_S131072x64 : S_.BroadcastsInDim S131072x64 (![] : Fin 0 → Fin S131072x64.rank)
  bcast_S131072x1_S131072x64_0_1 : S131072x1.BroadcastsInDim S131072x64 (![0, 1] : Fin 2 → Fin S131072x64.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x32 : S_.BroadcastsInDim S131072x32 (![] : Fin 0 → Fin S131072x32.rank)
  bcast_S131072x1_S131072x32_0_1 : S131072x1.BroadcastsInDim S131072x32 (![0, 1] : Fin 2 → Fin S131072x32.rank)
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x16 : S_.BroadcastsInDim S131072x16 (![] : Fin 0 → Fin S131072x16.rank)
  bcast_S131072x1_S131072x16_0_1 : S131072x1.BroadcastsInDim S131072x16 (![0, 1] : Fin 2 → Fin S131072x16.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  bcast_S_S128x16 : S_.BroadcastsInDim S128x16 (![] : Fin 0 → Fin S128x16.rank)
  bcast_S_S128 : S_.BroadcastsInDim S128 (![] : Fin 0 → Fin S128.rank)
  bcast_S128_S128x1_0 : S128.BroadcastsInDim S128x1 (![0] : Fin 1 → Fin S128x1.rank)
  bcast_S128x1_S128x16_0_1 : S128x1.BroadcastsInDim S128x16 (![0, 1] : Fin 2 → Fin S128x16.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  scatter_S131072_S2097152x1_S2097152_n_0_0_1_wf : ScatterDims.WF S131072 S2097152x1 S2097152 [] [0] [0] 1
  dot_S131072x256_S256x64_S131072x64_1_0_0_1_n_n_wf : DotDims.WF S131072x256 S256x64 S131072x64 [1] [0] [0] [1] [] []
  gather_S131072x64_S2097152x1_S2097152x64_1_0_n_n_0_1_164_wf : GatherDims.WF S131072x64 S2097152x1 S2097152x64 [1] [0] [] [0] [] 1 ![1, 64]
  scatter_S131072x64_S2097152x1_S2097152x64_1_0_0_1_wf : ScatterDims.WF S131072x64 S2097152x1 S2097152x64 [1] [0] [0] 1
  dot_S131072x64_S64x32_S131072x32_1_0_0_1_n_n_wf : DotDims.WF S131072x64 S64x32 S131072x32 [1] [0] [0] [1] [] []
  gather_S131072x32_S2097152x1_S2097152x32_1_0_n_n_0_1_132_wf : GatherDims.WF S131072x32 S2097152x1 S2097152x32 [1] [0] [] [0] [] 1 ![1, 32]
  scatter_S131072x32_S2097152x1_S2097152x32_1_0_0_1_wf : ScatterDims.WF S131072x32 S2097152x1 S2097152x32 [1] [0] [0] 1
  dot_S131072x32_S32x16_S131072x16_1_0_0_1_n_n_wf : DotDims.WF S131072x32 S32x16 S131072x16 [1] [0] [0] [1] [] []
  gather_S131072x16_S2097152x1_S2097152x16_1_0_n_n_0_1_116_wf : GatherDims.WF S131072x16 S2097152x1 S2097152x16 [1] [0] [] [0] [] 1 ![1, 16]
  scatter_S131072x16_S2097152x1_S2097152x16_1_0_0_1_wf : ScatterDims.WF S131072x16 S2097152x1 S2097152x16 [1] [0] [0] 1
  scatter_S128x16_S131072x1_S131072x16_1_0_0_1_wf : ScatterDims.WF S128x16 S131072x1 S131072x16 [1] [0] [0] 1
  scatter_S128_S131072x1_S131072_n_0_0_1_wf : ScatterDims.WF S128 S131072x1 S131072 [] [0] [0] 1
  dot_S128x16_S16x1_S128x1_1_0_0_1_n_n_wf : DotDims.WF S128x16 S16x1 S128x1 [1] [0] [0] [1] [] []

variable [Facts₀]

def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def dot_S131072x256_S256x64_S131072x64_1_0_0_1_n_n : DotDims S131072x256 S256x64 S131072x64 where
  lhsContracting := [1]
  rhsContracting := [0]
  lhsNonContracting := [0]
  rhsNonContracting := [1]
  lhsBatch := []
  rhsBatch := []
  wf := dot_S131072x256_S256x64_S131072x64_1_0_0_1_n_n_wf
def gather_S131072x64_S2097152x1_S2097152x64_1_0_n_n_0_1_164 : GatherDims S131072x64 S2097152x1 S2097152x64 where
  offsetDims := [1]
  collapsedSliceDims := [0]
  operandBatchingDims := []
  startIndicesBatchingDims := []
  startIndexMap := [0]
  indexVectorDim := 1
  sliceSizes := ![1, 64]
  wf := gather_S131072x64_S2097152x1_S2097152x64_1_0_n_n_0_1_164_wf
def scatter_S131072x64_S2097152x1_S2097152x64_1_0_0_1 : ScatterDims S131072x64 S2097152x1 S2097152x64 where
  updateWindowDims := [1]
  insertedWindowDims := [0]
  scatterDimsToOperandDims := [0]
  indexVectorDim := 1
  wf := scatter_S131072x64_S2097152x1_S2097152x64_1_0_0_1_wf
def dot_S131072x64_S64x32_S131072x32_1_0_0_1_n_n : DotDims S131072x64 S64x32 S131072x32 where
  lhsContracting := [1]
  rhsContracting := [0]
  lhsNonContracting := [0]
  rhsNonContracting := [1]
  lhsBatch := []
  rhsBatch := []
  wf := dot_S131072x64_S64x32_S131072x32_1_0_0_1_n_n_wf
def gather_S131072x32_S2097152x1_S2097152x32_1_0_n_n_0_1_132 : GatherDims S131072x32 S2097152x1 S2097152x32 where
  offsetDims := [1]
  collapsedSliceDims := [0]
  operandBatchingDims := []
  startIndicesBatchingDims := []
  startIndexMap := [0]
  indexVectorDim := 1
  sliceSizes := ![1, 32]
  wf := gather_S131072x32_S2097152x1_S2097152x32_1_0_n_n_0_1_132_wf
def scatter_S131072x32_S2097152x1_S2097152x32_1_0_0_1 : ScatterDims S131072x32 S2097152x1 S2097152x32 where
  updateWindowDims := [1]
  insertedWindowDims := [0]
  scatterDimsToOperandDims := [0]
  indexVectorDim := 1
  wf := scatter_S131072x32_S2097152x1_S2097152x32_1_0_0_1_wf
def dot_S131072x32_S32x16_S131072x16_1_0_0_1_n_n : DotDims S131072x32 S32x16 S131072x16 where
  lhsContracting := [1]
  rhsContracting := [0]
  lhsNonContracting := [0]
  rhsNonContracting := [1]
  lhsBatch := []
  rhsBatch := []
  wf := dot_S131072x32_S32x16_S131072x16_1_0_0_1_n_n_wf
def gather_S131072x16_S2097152x1_S2097152x16_1_0_n_n_0_1_116 : GatherDims S131072x16 S2097152x1 S2097152x16 where
  offsetDims := [1]
  collapsedSliceDims := [0]
  operandBatchingDims := []
  startIndicesBatchingDims := []
  startIndexMap := [0]
  indexVectorDim := 1
  sliceSizes := ![1, 16]
  wf := gather_S131072x16_S2097152x1_S2097152x16_1_0_n_n_0_1_116_wf
def scatter_S131072x16_S2097152x1_S2097152x16_1_0_0_1 : ScatterDims S131072x16 S2097152x1 S2097152x16 where
  updateWindowDims := [1]
  insertedWindowDims := [0]
  scatterDimsToOperandDims := [0]
  indexVectorDim := 1
  wf := scatter_S131072x16_S2097152x1_S2097152x16_1_0_0_1_wf
def scatter_S128x16_S131072x1_S131072x16_1_0_0_1 : ScatterDims S128x16 S131072x1 S131072x16 where
  updateWindowDims := [1]
  insertedWindowDims := [0]
  scatterDimsToOperandDims := [0]
  indexVectorDim := 1
  wf := scatter_S128x16_S131072x1_S131072x16_1_0_0_1_wf
def scatter_S128_S131072x1_S131072_n_0_0_1 : ScatterDims S128 S131072x1 S131072 where
  updateWindowDims := []
  insertedWindowDims := [0]
  scatterDimsToOperandDims := [0]
  indexVectorDim := 1
  wf := scatter_S128_S131072x1_S131072_n_0_0_1_wf
def dot_S128x16_S16x1_S128x1_1_0_0_1_n_n : DotDims S128x16 S16x1 S128x1 where
  lhsContracting := [1]
  rhsContracting := [0]
  lhsNonContracting := [0]
  rhsNonContracting := [1]
  lhsBatch := []
  rhsBatch := []
  wf := dot_S128x16_S16x1_S128x1_1_0_0_1_n_n_wf

class Facts : Prop extends Facts₀ where

variable [Facts]
-- ==== Proof.KRun.lean ====
/-
  The idealized kernel program's run with its RESULT named: every weakly fair execution of @main terminates, nothing
  faulting, with the result buffer at the contents the last boundary of the segment chain gives it (`Gen.W9`: the fold
  of the five host stretches and the four regions' write-backs from the launch memory) and the argument arrays as
  launched. The segment chain, its thread states and the launch are the generated frame's; only the read-off of the
  final state differs: it also reads the result buffer, which is one of the unscoped buffers the last thread state holds.
-/
import proofs.«104229_j63204738728607_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result buffer read off the last boundary's contents beside the arguments. -/
theorem run_out : θ_run defs (onTc (τ := τ) (main (F := F))) ⟨m, fun _ => 0, ρ⟩ (fun r => ∀ c : Dev nD,
      r.2.mem ((c.tc : Thread nD τ).loc main_v70) = W9 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v70 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.Out

end
-- ==== Proof.Spec.lean ====
/-
  The three whole-array functions that each Pallas region of the graph network computes, written index by index on the
  extended reals. Both programs are shown to compute these: the kernel side from its blocks, the reference side from its
  host operations. `N` is the number of nodes, `K` the layer's input width, `M` its output width.

  * `proj x n w`   : entry (r, j) is  Σ_k (x[r,k] · n[r,0]) · w[k,j]      — rows scaled by the source norm, then projected.
  * `post a d b s w`: entry (r, j) is  Σ_k (max(a[r,k] · d[r,0] + b[0,k], 0) · s[r,0]) · w[k,j]
                       — the previous layer's aggregate scaled by the destination norm, biased, rectified,
                         rescaled by the source norm and projected.
  * `fin a d b`     : entry (r, k) is  max(a[r,k] · d[r,0] + b[0,k], 0)    — the last layer's rectified output.
  The zero of the rectifier is kept as the float word both programs print (never evaluated).
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals with literal extents. -/
abbrev A2 (a b : Nat) : Type := (⟨2, ![a, b]⟩ : Shape).Idx → EReal

/-- The rectifier's zero, as the float word both programs carry. -/
abbrev z0 : EReal := Ideal.ofBits .f32 0x00000000#32

/-- Entry (r, j) of the row-scaled projection. -/
def projAt {N K M : Nat} (x : A2 N K) (n : A2 N 1) (w : A2 K M) (r : Fin N) (j : Fin M) : EReal :=
  ∑ k : Fin K, (x (ix2 r k) * n (ix2 r (0 : Fin 1))) * w (ix2 k j)

/-- The row-scaled projection `(x · diag n) @ w`. -/
def proj {N K M : Nat} (x : A2 N K) (n : A2 N 1) (w : A2 K M) : A2 N M :=
  fun i => projAt x n w (i 0) (i 1)

/-- Entry (r, k) of the rectified, biased, row-scaled aggregate. -/
def actAt {N K : Nat} (a : A2 N K) (d : A2 N 1) (b : A2 1 K) (r : Fin N) (k : Fin K) : EReal :=
  max (a (ix2 r k) * d (ix2 r (0 : Fin 1)) + b (ix2 (0 : Fin 1) k)) z0

/-- Entry (r, j) of a layer's post-processing followed by the next projection. -/
def postAt {N K M : Nat} (a : A2 N K) (d : A2 N 1) (b : A2 1 K) (s : A2 N 1) (w : A2 K M) (r : Fin N) (j : Fin M) : EReal :=
  ∑ k : Fin K, (actAt a d b r k * s (ix2 r (0 : Fin 1))) * w (ix2 k j)

/-- A layer's post-processing followed by the next projection. -/
def post {N K M : Nat} (a : A2 N K) (d : A2 N 1) (b : A2 1 K) (s : A2 N 1) (w : A2 K M) : A2 N M :=
  fun i => postAt a d b s w (i 0) (i 1)

/-- The last layer's post-processing alone. -/
def fin {N K : Nat} (a : A2 N K) (d : A2 N 1) (b : A2 1 K) : A2 N K :=
  fun i => actAt a d b (i 0) (i 1)

theorem proj_ix2 {N K M : Nat} (x : A2 N K) (n : A2 N 1) (w : A2 K M) (r : Fin N) (j : Fin M) :
    proj x n w (ix2 r j) = projAt x n w r j := rfl
theorem post_ix2 {N K M : Nat} (a : A2 N K) (d : A2 N 1) (b : A2 1 K) (s : A2 N 1) (w : A2 K M) (r : Fin N) (j : Fin M) :
    post a d b s w (ix2 r j) = postAt a d b s w r j := rfl
theorem fin_ix2 {N K : Nat} (a : A2 N K) (d : A2 N 1) (b : A2 1 K) (r : Fin N) (k : Fin K) :
    fin a d b (ix2 r k) = actAt a d b r k := rfl

end Cert.Spec

end
-- ==== Proof.Region0.lean ====
/-
  Region 0 of the graph network: the row-scaled projection.

  The region's pipeline runs over 32 grid points. At point `t` it holds rows `4096 t … 4096 t + 4095` of the feature
  array `x` ([131072, 256]) and of the source-norm column `n` ([131072, 1]) and the whole weight matrix `w` ([256, 64]),
  and its body stores, for the block's row `p` and column `q`,
      Σ_k (x[p, k] · n[p, 0]) · w[k, q]      (k over the 256 input features)
  — the product of the block by the broadcast column, contracted against the weights into a zero accumulator; the
  changes of float format are the identity on the extended reals. This module proves that after the 32 write-backs
  the output array ([131072, 64]) is `Cert.Spec.proj x n w`, entry by entry:

  * the payload at an entry of the block is the specification's sum over the block's operands (`pay_apply`): the
    contraction's sum re-indexed through its one axis, the broadcast column read at its row;
  * a block's entry is the array's entry at block index × block size + the coordinate inside the block
    (`blk0_apply`, `blk1_apply`, `blk2_apply`), so a block's projection is the arrays' projection at the row
    `4096 t + p` (`projAt_blk`) and point `t` writes back block `t` of the whole-array function (`flushed_eq`);
  * row `r` of the output lies in the block of point `r / 4096` and every point writes back (`cover`), so the array
    ends holding the whole-array function (`arr`).
-/
import proofs.«104229_j63204738728607_1_alg».proof.Proof.Gen.KernelIdeal.Frame
import proofs.«104229_j63204738728607_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Reg0
open Cert.KernelIdeal Cert.KernelIdeal.Gen Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-! ## The payload at an entry -/

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else c.val
    rw [if_pos rfl]

/-! ### The contraction's operand indices

The dimension numbers contract axis 1 of the left operand against axis 0 of the right: at output entry `j` and
contraction index `s` the left operand is read at `(j 0, s)` and the right at `(s, j 1)`. -/

theorem lhs_row (j : S4096x64.Idx) (s : dot_S4096x256_S256x64_S4096x64_1_0_0_1_n_n.contr.Idx) :
    (dot_S4096x256_S256x64_S4096x64_1_0_0_1_n_n.lhsIdx j s 0).val = (j 0).val := by
  unfold DotDims.lhsIdx
  rw [dif_neg (show ¬(0 : Fin S4096x256.rank) ∈ dot_S4096x256_S256x64_S4096x64_1_0_0_1_n_n.lhsBatch by decide),
    dif_pos (show (0 : Fin S4096x256.rank) ∈ dot_S4096x256_S256x64_S4096x64_1_0_0_1_n_n.lhsNonContracting by decide)]
  rfl
theorem lhs_col (j : S4096x64.Idx) (s : dot_S4096x256_S256x64_S4096x64_1_0_0_1_n_n.contr.Idx) :
    (dot_S4096x256_S256x64_S4096x64_1_0_0_1_n_n.lhsIdx j s 1).val = (s ⟨0, by decide⟩).val :=
  dot_S4096x256_S256x64_S4096x64_1_0_0_1_n_n.lhsIdx_val_of_single rfl j s
theorem rhs_row (j : S4096x64.Idx) (s : dot_S4096x256_S256x64_S4096x64_1_0_0_1_n_n.contr.Idx) :
    (dot_S4096x256_S256x64_S4096x64_1_0_0_1_n_n.rhsIdx j s 0).val = (s ⟨0, by decide⟩).val :=
  dot_S4096x256_S256x64_S4096x64_1_0_0_1_n_n.rhsIdx_val_of_single rfl j s
theorem rhs_col (j : S4096x64.Idx) (s : dot_S4096x256_S256x64_S4096x64_1_0_0_1_n_n.contr.Idx) :
    (dot_S4096x256_S256x64_S4096x64_1_0_0_1_n_n.rhsIdx j s 1).val = (j 1).val := by
  unfold DotDims.rhsIdx
  rw [dif_neg (show ¬(1 : Fin S256x64.rank) ∈ dot_S4096x256_S256x64_S4096x64_1_0_0_1_n_n.rhsBatch by decide),
    dif_pos (show (1 : Fin S256x64.rank) ∈ dot_S4096x256_S256x64_S4096x64_1_0_0_1_n_n.rhsNonContracting by decide)]
  rfl

/-- The left operand's index at output entry `(p, q)` and contraction coordinate `k` is `(p, k)` … -/
theorem lhs_at (p : Fin 4096) (q : Fin 64) (k : Fin 256) :
    dot_S4096x256_S256x64_S4096x64_1_0_0_1_n_n.lhsIdx (ix2 p q)
      ((contrEquiv1 dot_S4096x256_S256x64_S4096x64_1_0_0_1_n_n 256 rfl rfl).symm k) = ix2 p k := by
  have hk := contrEquiv1_symm_val dot_S4096x256_S256x64_S4096x64_1_0_0_1_n_n 256 rfl rfl k
  refine funext fun a => Fin.ext ?_
  match a with
  | ⟨0, _⟩ => exact lhs_row _ _
  | ⟨1, _⟩ => exact (lhs_col _ _).trans hk

/-- … and the right operand's is `(k, q)`. -/
theorem rhs_at (p : Fin 4096) (q : Fin 64) (k : Fin 256) :
    dot_S4096x256_S256x64_S4096x64_1_0_0_1_n_n.rhsIdx (ix2 p q)
      ((contrEquiv1 dot_S4096x256_S256x64_S4096x64_1_0_0_1_n_n 256 rfl rfl).symm k) = ix2 k q := by
  have hk := contrEquiv1_symm_val dot_S4096x256_S256x64_S4096x64_1_0_0_1_n_n 256 rfl rfl k
  refine funext fun a => Fin.ext ?_
  match a with
  | ⟨0, _⟩ => exact (rhs_row _ _).trans hk
  | ⟨1, _⟩ => exact rhs_col _ _

/-- THE PAYLOAD AT ENTRY `(p, q)` of the block: the sum over the 256 input features of the scaled feature times the
    weight — the matmul into the zero accumulator is the bare sum over its one contraction axis, the left operand at
    `(p, k)` is the product of the feature by the norm column broadcast along the row, the right operand at `(k, q)` the
    weight; rounding to the narrower format changes nothing on the extended reals. -/
theorem pay_apply (x0 : Vec Ideal S4096x256 .f32) (x1 : Vec Ideal S4096x1 .f32) (x2 : Vec Ideal S256x64 .f32)
    (p : Fin 4096) (q : Fin 64) :
    k0_pay1 (F := Ideal) x0 x1 x2 (ix2 p q) = Cert.Spec.projAt x0 x1 x2 p q := by
  unfold k0_pay1
  refine (Ideal.matmul_constant_zero_apply dot_S4096x256_S256x64_S4096x64_1_0_0_1_n_n none _ _ (ix2 p q)).trans ?_
  refine (Equiv.sum_comp (contrEquiv1 dot_S4096x256_S256x64_S4096x64_1_0_0_1_n_n 256 rfl rfl).symm _).symm.trans ?_
  unfold Cert.Spec.projAt
  refine Finset.sum_congr rfl fun k _ => ?_
  rw [lhs_at p q k, rhs_at p q k]
  show x0 (ix2 p k) * broadcastTo S4096x256 (shapeCast S4096x1 x1 shapeCasts_S4096x1_S4096x1) broadcasts_S4096x1_S4096x256 (ix2 p k) * x2 (ix2 k q) = _
  rw [broadcastTo_a1_ab_apply, shapeCast_self]

/-! ## The index maps over the grid -/

/-- The printed index maps, decided once over the 32 grid points: the three moving windows sit at block `(t, 0)`, the
    weight window at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has 32 points. -/
theorem lt_N (t : Fin cfg0.N) : t.val < 32 := lt_of_lt_of_eq t.isLt N_0

/-! ## The blocks, read off the arrays

A block's entry sits in its array, on each axis, at block index × block size + the coordinate inside the block. -/

/-- Row `p` of point `t`'s feature block is row `4096 t + p` of the feature array. -/
theorem blk0_apply (c : Dev nD) (t : Fin cfg0.N) (p : Fin 4096) (k : Fin 256) (r : Fin 131072)
    (hr : r.val = t.val * 4096 + p.val) :
    (iblk0 V c 0 t : Vec Ideal S4096x256 .f32) (ix2 p k) = (V c main_arg0 : Vec Ideal S131072x256 .f32) (ix2 r k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 4096 + 1 * p.val = r.val; rw [e0, hr]; omega
  | ⟨1, _⟩ => show win0_0.index t (1 : Fin 2) * 256 + 1 * k.val = k.val; rw [e1]; omega

/-- Row `p` of point `t`'s norm block is row `4096 t + p` of the norm column. -/
theorem blk1_apply (c : Dev nD) (t : Fin cfg0.N) (p : Fin 4096) (r : Fin 131072)
    (hr : r.val = t.val * 4096 + p.val) :
    (iblk0 V c 1 t : Vec Ideal S4096x1 .f32) (ix2 p (0 : Fin 1)) = (V c main_v11 : Vec Ideal S131072x1 .f32) (ix2 r (0 : Fin 1)) := by
  obtain ⟨-, -, e0, e1, -⟩ := idx_facts t
  unfold iblk0
  rw [View.read_apply]
  show V c main_v11 _ = V c main_v11 _
  refine congrArg (V c main_v11) (funext fun a => Fin.ext ?_)
  match a with
  | ⟨0, _⟩ => show win0_1.index t (0 : Fin 2) * 4096 + 1 * p.val = r.val; rw [e0, hr]; omega
  | ⟨1, _⟩ => show win0_1.index t (1 : Fin 2) * 1 + 1 * 0 = 0; rw [e1]

/-- The weight window's one block is the weight matrix. -/
theorem blk2_apply (c : Dev nD) (t : Fin cfg0.N) (k : Fin 256) (q : Fin 64) :
    (iblk0 V c 2 t : Vec Ideal S256x64 .f32) (ix2 k q) = (V c main_arg4 : Vec Ideal S256x64 .f32) (ix2 k q) := by
  obtain ⟨-, -, -, -, e0, e1, -⟩ := idx_facts t
  unfold iblk0
  rw [View.read_apply]
  show V c main_arg4 _ = V c main_arg4 _
  refine congrArg (V c main_arg4) (funext fun a => Fin.ext ?_)
  match a with
  | ⟨0, _⟩ => show win0_2.index t (0 : Fin 2) * 256 + 1 * k.val = k.val; rw [e0]; omega
  | ⟨1, _⟩ => show win0_2.index t (1 : Fin 2) * 64 + 1 * q.val = q.val; rw [e1]; omega

/-- Entry `(p, q)` of the projection of point `t`'s blocks is entry `(4096 t + p, q)` of the projection of the arrays:
    the row blocks are read at that row, the weights whole. -/
theorem projAt_blk (c : Dev nD) (t : Fin cfg0.N) (p : Fin 4096) (q : Fin 64) (r : Fin 131072)
    (hr : r.val = t.val * 4096 + p.val) :
    Cert.Spec.projAt (iblk0 V c 0 t : Vec Ideal S4096x256 .f32) (iblk0 V c 1 t : Vec Ideal S4096x1 .f32) (iblk0 V c 2 t : Vec Ideal S256x64 .f32) p q
      = Cert.Spec.projAt (V c main_arg0) (V c main_v11) (V c main_arg4) r q := by
  unfold Cert.Spec.projAt
  refine Finset.sum_congr rfl fun k _ => ?_
  rw [blk0_apply V c t p k r hr, blk1_apply V c t p r hr, blk2_apply V c t k q]

/-! ## What a point writes back -/

/-- Point `t` writes back block `t` of the row-scaled projection of the arrays the region was entered with. -/
theorem flushed_eq (c : Dev nD) (t : Fin cfg0.N) :
    (dat0 (F := Ideal) V c).flushed 3 t
      = ((cfg0.win 3).blk t).view.read (Elt Ideal) (Cert.Spec.proj (V c main_arg0) (V c main_v11) (V c main_arg4)) := by
  show (cfg0.win 3).cut (grid0.coords t) ((dat0 V c).after 3 t) = _
  rw [after0_3]
  unfold out0_3
  rw [View.canon_unit_zero hz]
  simp only [View.ld_unit_zero (S := S4096x256) hz, View.ld_unit_zero (S := S4096x1) hz, View.ld_unit_zero (S := S256x64) hz]
  funext j
  obtain ⟨p, q, rfl⟩ : ∃ (p : Fin 4096) (q : Fin 64), j = ix2 p q := ⟨j 0, j 1, eq_ix2 j⟩
  have ht := lt_N t
  obtain ⟨-, -, -, -, -, -, e0, e1⟩ := idx_facts t
  show k0_pay1 (F := Ideal) (iblk0 V c 0 t) (iblk0 V c 1 t) (iblk0 V c 2 t) (ix2 p q)
    = Cert.Spec.proj (V c main_arg0) (V c main_v11) (V c main_arg4) (((cfg0.win 3).blk t).view.emb (ix2 p q))
  refine (pay_apply _ _ _ p q).trans ?_
  refine (projAt_blk V c t p q ⟨t.val * 4096 + p.val, by omega⟩ rfl).trans ?_
  refine (Cert.Spec.proj_ix2 _ _ _ _ _).symm.trans (congrArg _ (funext fun a => Fin.ext ?_))
  match a with
  | ⟨0, _⟩ => show t.val * 4096 + p.val = win0_3.index t (0 : Fin 2) * 4096 + 1 * p.val; rw [e0]; omega
  | ⟨1, _⟩ => show q.val = win0_3.index t (1 : Fin 2) * 64 + 1 * q.val; rw [e1]; omega

/-! ## The blocks tile the array -/

/-- An index of the output array is in point `t`'s block iff each coordinate is in the block's range on its axis. -/
theorem mem_blk (t : Fin cfg0.N) (i : S131072x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v17).slice (win0_3.rect t)).set ↔ _
  rw [View.set_slice_whole, Rect.mem_set_unit]
  exact Iff.rfl

/-- Row `r` of the output lies in the block of point `r / 4096` (131072 = 32 · 4096), whatever the column; every point
    writes its block back. -/
theorem cover (i : S131072x64.Idx) :
    ∃ t : Fin cfg0.N, (cfg0.win 3).flush t = true ∧ i ∈ ((cfg0.win 3).blk t).view.set := by
  have hi0 : (i 0).val < 131072 := (i 0).isLt
  have hi1 : (i 1).val < 64 := (i 1).isLt
  have hN : cfg0.N = 32 := N_0
  let t : Fin cfg0.N := ⟨(i 0).val / 4096, by rw [hN]; omega⟩
  obtain ⟨-, -, -, -, -, -, e0, e1⟩ := idx_facts t
  have et : t.val = (i 0).val / 4096 := rfl
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; rw [e0, et]; omega
  | ⟨1, _⟩ => show win0_3.index t (1 : Fin 2) * 64 ≤ (i 1).val ∧ (i 1).val < win0_3.index t (1 : Fin 2) * 64 + 64; rw [e1]; omega

/-! ## The array after the region -/

/-- After the pipeline has run over its 32 points the output array holds the row-scaled projection
    `(x · diag n) @ w` of the arrays the region was entered with. -/
theorem arr (c : Dev nD) :
    (dat0 (F := Ideal) V c).arrAt 3 cfg0.N = Cert.Spec.proj (V c main_arg0) (V c main_v11) (V c main_arg4) :=
  (dat0 (F := Ideal) V c).arrAt_eq_of_cover 3 (Cert.Spec.proj (V c main_arg0) (V c main_v11) (V c main_arg4))
    (fun t _ => flushed_eq V c t) cover

end Cert.KernelIdeal.Reg0
end
-- ==== Proof.Region1.lean ====
/-
  Pallas region 1: one layer's post-processing followed by the next layer's projection, from blocks to the whole array.

  The region's pipeline walks 32 grid points. At point t the body holds rows 4096·t … 4096·t + 4095 of the aggregate a
  (width 64), of the destination norm d and of the source norm s (one column each), the whole bias row b and the whole
  weight matrix w (64 × 32), and it writes rows 4096·t … 4096·t + 4095 of the output (width 32). Entry (p, q) of what it
  writes is the matrix product's sum over the 64 columns k of
      (max (a[p,k] · d[p,0] + b[0,k]) 0 · s[p,0]) · w[k,q]:
  the broadcasts of the two norm columns and of the bias row read one entry each, the roundings on the way into the
  product are the identity on the extended reals, and the product into a zero accumulator is the plain sum.
  Row p of block t is row 4096·t + p of each row-blocked array, so what point t writes back is block t of the whole-array
  function `Cert.Spec.post` of the arrays the region was entered with; the 32 blocks tile the 131072 rows
  (131072 = 32 · 4096) and every point writes back, so after the last point the output array is that function.
-/
import proofs.«104229_j63204738728607_1_alg».proof.Proof.Gen.KernelIdeal.Frame
import proofs.«104229_j63204738728607_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Reg1
open Cert.KernelIdeal Cert.KernelIdeal.Gen Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))

/-! ## The body's value at an index -/

/-- The zero offsets of a whole-buffer access, as the constant function. -/
theorem hz : (![0, 0] : Fin 2 → Nat) = fun _ => 0 := funext fun a => by fin_cases a <;> rfl

/-- A column [a,1] broadcast to [a,b] reads, at (p, c), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's dimension numbers: [4096,64] times [64,32], contracting the left operand's columns with the right's rows. -/
abbrev D1 := dot_S4096x64_S64x32_S4096x32_1_0_0_1_n_n

/-- The left operand is read in the output's row … -/
theorem lhs_0 (i : S4096x32.Idx) (r : D1.contr.Idx) : (D1.lhsIdx i r 0).val = (i 0).val := by
  unfold DotDims.lhsIdx
  rw [dif_neg (show ¬(0 : Fin S4096x64.rank) ∈ D1.lhsBatch by decide), dif_pos (show (0 : Fin S4096x64.rank) ∈ D1.lhsNonContracting by decide)]
  rfl
/-- … at the contraction index's column; -/
theorem lhs_1 (i : S4096x32.Idx) (r : D1.contr.Idx) : (D1.lhsIdx i r 1).val = (r ⟨0, by decide⟩).val :=
  D1.lhsIdx_val_of_single rfl i r
/-- the right operand at the contraction index's row … -/
theorem rhs_0 (i : S4096x32.Idx) (r : D1.contr.Idx) : (D1.rhsIdx i r 0).val = (r ⟨0, by decide⟩).val :=
  D1.rhsIdx_val_of_single rfl i r
/-- … in the output's column. -/
theorem rhs_1 (i : S4096x32.Idx) (r : D1.contr.Idx) : (D1.rhsIdx i r 1).val = (i 1).val := by
  unfold DotDims.rhsIdx
  rw [dif_neg (show ¬(1 : Fin S64x32.rank) ∈ D1.rhsBatch by decide), dif_pos (show (1 : Fin S64x32.rank) ∈ D1.rhsNonContracting by decide)]
  rfl

/-- Entry (p, q) of the body's stored value, over any five blocks: the sum over the 64 columns k of the rectified, biased,
    twice row-scaled entry (p, k) times the weight (k, q). The product into the zero accumulator is the sum over the
    contraction index, re-indexed by its one coordinate; under the sum each factor is read at its index. -/
theorem pay_apply (x0 : Vec Ideal S4096x64 .f32) (x1 : Vec Ideal S4096x1 .f32) (x2 : Vec Ideal S1x64 .f32)
    (x3 : Vec Ideal S4096x1 .f32) (x4 : Vec Ideal S64x32 .f32) (p : Fin 4096) (q : Fin 32) :
    k1_pay1 (F := Ideal) x0 x1 x2 x3 x4 (ix2 p q) = Cert.Spec.postAt x0 x1 x2 x3 x4 p q := by
  unfold k1_pay1
  refine (Ideal.matmul_constant_zero_apply D1 none _ _ (ix2 p q)).trans ?_
  refine (Equiv.sum_comp (contrEquiv1 D1 64 rfl rfl).symm _).symm.trans ?_
  unfold Cert.Spec.postAt
  refine Finset.sum_congr rfl fun k _ => ?_
  have hk := contrEquiv1_symm_val D1 64 rfl rfl k
  have el : D1.lhsIdx (ix2 p q) ((contrEquiv1 D1 64 rfl rfl).symm k) = ix2 p k := funext fun a => Fin.ext (by
    match a with
    | ⟨0, _⟩ => exact lhs_0 _ _
    | ⟨1, _⟩ => exact (lhs_1 _ _).trans hk)
  have er : D1.rhsIdx (ix2 p q) ((contrEquiv1 D1 64 rfl rfl).symm k) = ix2 k q := funext fun a => Fin.ext (by
    match a with
    | ⟨0, _⟩ => exact (rhs_0 _ _).trans hk
    | ⟨1, _⟩ => exact rhs_1 _ _)
  rw [el, er]
  simp only [shapeCast_self]
  have e1 := broadcastTo_a1_ab_apply x1 broadcasts_S4096x1_S4096x64 p k
  have e2 := broadcastTo_1b_ab_apply x2 broadcasts_S1x64_S4096x64 p k
  have e3 := broadcastTo_a1_ab_apply x3 broadcasts_S4096x1_S4096x64 p k
  unfold Cert.Spec.actAt
  show max (x0 (ix2 p k) * broadcastTo S4096x64 x1 broadcasts_S4096x1_S4096x64 (ix2 p k)
        + broadcastTo S4096x64 x2 broadcasts_S1x64_S4096x64 (ix2 p k)) (Ideal.ofBits .f32 0x00000000#32)
      * broadcastTo S4096x64 x3 broadcasts_S4096x1_S4096x64 (ix2 p k) * x4 (ix2 k q) = _
  rw [e1, e2, e3]

/-! ## The blocks, read off the arrays -/

/-- The printed index maps over the 32 grid points: the three row-blocked inputs and the output sit at block (t, 0), the
    bias row and the weight matrix at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the aggregate's block at point t is row 4096·t + p of the aggregate. -/
theorem blk0 (c : Dev nD) (t : Fin cfg1.N) (p : Fin 4096) (k : Fin 64) (r : Fin 131072) (hr : r.val = t.val * 4096 + p.val) :
    (iblk1 V c 0 t : Vec Ideal S4096x64 .f32) (ix2 p k) = (V c main_v27 : S131072x64.Idx → EReal) (ix2 r k) := by
  obtain ⟨e0, e1, -⟩ := idx_facts t
  show V c main_v27 (((cfg1.win 0).blk t).view.emb (ix2 p k)) = V c main_v27 (ix2 r k)
  refine congrArg _ (funext fun a => Fin.ext ?_)
  match a with
  | ⟨0, _⟩ => show win1_0.index t (0 : Fin 2) * 4096 + 1 * p.val = r.val; rw [e0, hr]; omega
  | ⟨1, _⟩ => show win1_0.index t (1 : Fin 2) * 64 + 1 * k.val = k.val; rw [e1]; omega

/-- Row p of the destination norm's block at point t is row 4096·t + p of that column. -/
theorem blk1 (c : Dev nD) (t : Fin cfg1.N) (p : Fin 4096) (r : Fin 131072) (hr : r.val = t.val * 4096 + p.val) :
    (iblk1 V c 1 t : Vec Ideal S4096x1 .f32) (ix2 p (0 : Fin 1)) = (V c main_v16 : S131072x1.Idx → EReal) (ix2 r (0 : Fin 1)) := by
  obtain ⟨-, -, e0, e1, -⟩ := idx_facts t
  show V c main_v16 (((cfg1.win 1).blk t).view.emb (ix2 p (0 : Fin 1))) = V c main_v16 (ix2 r (0 : Fin 1))
  refine congrArg _ (funext fun a => Fin.ext ?_)
  match a with
  | ⟨0, _⟩ => show win1_1.index t (0 : Fin 2) * 4096 + 1 * p.val = r.val; rw [e0, hr]; omega
  | ⟨1, _⟩ => show win1_1.index t (1 : Fin 2) * 1 + 1 * 0 = 0; rw [e1]

/-- The bias row's block is the whole row at every point. -/
theorem blk2 (c : Dev nD) (t : Fin cfg1.N) (k : Fin 64) :
    (iblk1 V c 2 t : Vec Ideal S1x64 .f32) (ix2 (0 : Fin 1) k) = (V c main_v28 : S1x64.Idx → EReal) (ix2 (0 : Fin 1) k) := by
  obtain ⟨-, -, -, -, e0, e1, -⟩ := idx_facts t
  show V c main_v28 (((cfg1.win 2).blk t).view.emb (ix2 (0 : Fin 1) k)) = V c main_v28 (ix2 (0 : Fin 1) k)
  refine congrArg _ (funext fun a => Fin.ext ?_)
  match a with
  | ⟨0, _⟩ => show win1_2.index t (0 : Fin 2) * 1 + 1 * 0 = 0; rw [e0]
  | ⟨1, _⟩ => show win1_2.index t (1 : Fin 2) * 64 + 1 * k.val = k.val; rw [e1]; omega

/-- Row p of the source norm's block at point t is row 4096·t + p of that column. -/
theorem blk3 (c : Dev nD) (t : Fin cfg1.N) (p : Fin 4096) (r : Fin 131072) (hr : r.val = t.val * 4096 + p.val) :
    (iblk1 V c 3 t : Vec Ideal S4096x1 .f32) (ix2 p (0 : Fin 1)) = (V c main_v11 : S131072x1.Idx → EReal) (ix2 r (0 : Fin 1)) := by
  obtain ⟨-, -, -, -, -, -, e0, e1, -⟩ := idx_facts t
  show V c main_v11 (((cfg1.win 3).blk t).view.emb (ix2 p (0 : Fin 1))) = V c main_v11 (ix2 r (0 : Fin 1))
  refine congrArg _ (funext fun a => Fin.ext ?_)
  match a with
  | ⟨0, _⟩ => show win1_3.index t (0 : Fin 2) * 4096 + 1 * p.val = r.val; rw [e0, hr]; omega
  | ⟨1, _⟩ => show win1_3.index t (1 : Fin 2) * 1 + 1 * 0 = 0; rw [e1]

/-- The weight matrix's block is the whole matrix at every point. -/
theorem blk4 (c : Dev nD) (t : Fin cfg1.N) (k : Fin 64) (q : Fin 32) :
    (iblk1 V c 4 t : Vec Ideal S64x32 .f32) (ix2 k q) = (V c main_arg6 : S64x32.Idx → EReal) (ix2 k q) := by
  obtain ⟨-, -, -, -, -, -, -, -, e0, e1, -⟩ := idx_facts t
  show V c main_arg6 (((cfg1.win 4).blk t).view.emb (ix2 k q)) = V c main_arg6 (ix2 k q)
  refine congrArg _ (funext fun a => Fin.ext ?_)
  match a with
  | ⟨0, _⟩ => show win1_4.index t (0 : Fin 2) * 64 + 1 * k.val = k.val; rw [e0]; omega
  | ⟨1, _⟩ => show win1_4.index t (1 : Fin 2) * 32 + 1 * q.val = q.val; rw [e1]; omega

/-! ## From blocks to the array -/

/-- What grid point t writes back is block t of the whole-array function of the arrays the region was entered with: the
    body's one store leaves its value of the five input blocks, whose entry (p, q) is the function's entry
    (4096·t + p, q), each block read where the output's rows say. -/
theorem flushed_eq (c : Dev nD) (t : Fin cfg1.N) :
    (dat1 (F := Ideal) V c).flushed 5 t = ((cfg1.win 5).blk t).view.read (Elt Ideal)
      (Cert.Spec.post (V c main_v27) (V c main_v16) (V c main_v28) (V c main_v11) (V c main_arg6)) := by
  show (cfg1.win 5).cut (grid1.coords t) ((dat1 V c).after 5 t) = _
  rw [after1_5]
  unfold out1_5
  rw [View.canon_unit_zero hz]
  simp only [View.ld_unit_zero (S := S4096x64) hz, View.ld_unit_zero (S := S4096x1) hz, View.ld_unit_zero (S := S1x64) hz,
    View.ld_unit_zero (S := S64x32) hz]
  funext j
  obtain ⟨p, q, rfl⟩ : ∃ (p : Fin 4096) (q : Fin 32), j = ix2 p q := ⟨j 0, j 1, eq_ix2 j⟩
  have ht : t.val < 32 := lt_of_lt_of_eq t.isLt N_1
  obtain ⟨r, hr⟩ : ∃ r : Fin 131072, r.val = t.val * 4096 + p.val :=
    ⟨⟨t.val * 4096 + p.val, by have := p.isLt; omega⟩, rfl⟩
  obtain ⟨-, -, -, -, -, -, -, -, -, -, e0, e1⟩ := idx_facts t
  have hemb : ((cfg1.win 5).blk t).view.emb (ix2 p q) = (ix2 r q : S131072x32.Idx) := funext fun a => Fin.ext (by
    match a with
    | ⟨0, _⟩ => show win1_5.index t (0 : Fin 2) * 4096 + 1 * p.val = r.val; rw [e0, hr]; omega
    | ⟨1, _⟩ => show win1_5.index t (1 : Fin 2) * 32 + 1 * q.val = q.val; rw [e1]; omega)
  show k1_pay1 (F := Ideal) (iblk1 V c 0 t) (iblk1 V c 1 t) (iblk1 V c 2 t) (iblk1 V c 3 t) (iblk1 V c 4 t) (ix2 p q)
    = Cert.Spec.post (V c main_v27) (V c main_v16) (V c main_v28) (V c main_v11) (V c main_arg6)
        (((cfg1.win 5).blk t).view.emb (ix2 p q))
  refine Eq.trans ?_ (congrArg (Cert.Spec.post (V c main_v27) (V c main_v16) (V c main_v28) (V c main_v11) (V c main_arg6)) hemb.symm)
  refine (pay_apply (iblk1 V c 0 t) (iblk1 V c 1 t) (iblk1 V c 2 t) (iblk1 V c 3 t) (iblk1 V c 4 t) p q).trans ?_
  show _ = Cert.Spec.postAt (V c main_v27) (V c main_v16) (V c main_v28) (V c main_v11) (V c main_arg6) r q
  unfold Cert.Spec.postAt Cert.Spec.actAt
  refine Finset.sum_congr rfl fun k _ => ?_
  rw [blk0 V c t p k r hr, blk1 V c t p r hr, blk2 V c t k, blk3 V c t p r hr, blk4 V c t k q]

/-- An index of the output array lies in point t's block iff each coordinate lies in the block's range on its axis. -/
theorem mem_blk (t : Fin cfg1.N) (i : S131072x32.Idx) :
    i ∈ ((cfg1.win 5).blk t).view.set ↔ ∀ a : Fin 2, win1_5.index t a * S4096x32.size a ≤ (i a).val
      ∧ (i a).val < win1_5.index t a * S4096x32.size a + S4096x32.size a := by
  show i ∈ ((View.whole main_v29).slice (win1_5.rect t)).set ↔ _
  rw [View.set_slice_whole, Rect.mem_set_unit]
  exact Iff.rfl

/-- Row r of the output lies in the block of grid point r / 4096 (131072 = 32 · 4096), every column is in range, and every
    point writes its block back: the 32 blocks cover the array. -/
theorem cover (i : S131072x32.Idx) :
    ∃ t : Fin cfg1.N, (cfg1.win 5).flush t = true ∧ i ∈ ((cfg1.win 5).blk t).view.set := by
  have hi0 : (i 0).val < 131072 := (i 0).isLt
  have hi1 : (i 1).val < 32 := (i 1).isLt
  obtain ⟨t, ht⟩ : ∃ t : Fin cfg1.N, t.val = (i 0).val / 4096 :=
    ⟨⟨(i 0).val / 4096, lt_of_lt_of_eq (by omega : (i 0).val / 4096 < 32) N_1.symm⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 4096 ≤ (i 0).val ∧ (i 0).val < win1_5.index t (0 : Fin 2) * 4096 + 4096
    rw [e0, ht]; omega
  | ⟨1, _⟩ =>
    show win1_5.index t (1 : Fin 2) * 32 ≤ (i 1).val ∧ (i 1).val < win1_5.index t (1 : Fin 2) * 32 + 32
    rw [e1]; omega

/-- The output array after the 32 grid points is the layer's post-processing and next projection of the arrays the region was
    entered with. -/
theorem arr (c : Dev nD) :
    (dat1 (F := Ideal) V c).arrAt 5 cfg1.N = Cert.Spec.post (V c main_v27) (V c main_v16) (V c main_v28) (V c main_v11) (V c main_arg6) :=
  (dat1 (F := Ideal) V c).arrAt_eq_of_cover 5 _ (fun t _ => flushed_eq V c t) cover
end Cert.KernelIdeal.Reg1
end
-- ==== Proof.Region2.lean ====
/-
  Pallas region 2: one layer's post-processing followed by the next layer's projection, from blocks to the whole array.

  The region's pipeline walks 32 grid points. At point t the body holds rows 4096·t … 4096·t + 4095 of the aggregate a
  (width 32), of the destination norm d and of the source norm s (one column each), the whole bias row b and the whole
  weight matrix w (32 × 16), and it writes rows 4096·t … 4096·t + 4095 of the output (width 16). Entry (p, q) of what it
  writes is the matrix product's sum over the 32 columns k of
      (max (a[p,k] · d[p,0] + b[0,k]) 0 · s[p,0]) · w[k,q]:
  the broadcasts of the two norm columns and of the bias row read one entry each, the roundings on the way into the
  product are the identity on the extended reals, and the product into a zero accumulator is the plain sum.
  Row p of block t is row 4096·t + p of each row-blocked array, so what point t writes back is block t of the whole-array
  function `Cert.Spec.post` of the arrays the region was entered with; the 32 blocks tile the 131072 rows
  (131072 = 32 · 4096) and every point writes back, so after the last point the output array is that function.
-/
import proofs.«104229_j63204738728607_1_alg».proof.Proof.Gen.KernelIdeal.Frame
import proofs.«104229_j63204738728607_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Reg2
open Cert.KernelIdeal Cert.KernelIdeal.Gen Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))

/-! ## The body's value at an index -/

/-- The zero offsets of a whole-buffer access, as the constant function. -/
theorem hz : (![0, 0] : Fin 2 → Nat) = fun _ => 0 := funext fun a => by fin_cases a <;> rfl

/-- A column [a,1] broadcast to [a,b] reads, at (p, c), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's dimension numbers: [4096,32] times [32,16], contracting the left operand's columns with the right's rows. -/
abbrev D2 := dot_S4096x32_S32x16_S4096x16_1_0_0_1_n_n

/-- The left operand is read in the output's row … -/
theorem lhs_0 (i : S4096x16.Idx) (r : D2.contr.Idx) : (D2.lhsIdx i r 0).val = (i 0).val := by
  unfold DotDims.lhsIdx
  rw [dif_neg (show ¬(0 : Fin S4096x32.rank) ∈ D2.lhsBatch by decide), dif_pos (show (0 : Fin S4096x32.rank) ∈ D2.lhsNonContracting by decide)]
  rfl
/-- … at the contraction index's column; -/
theorem lhs_1 (i : S4096x16.Idx) (r : D2.contr.Idx) : (D2.lhsIdx i r 1).val = (r ⟨0, by decide⟩).val :=
  D2.lhsIdx_val_of_single rfl i r
/-- the right operand at the contraction index's row … -/
theorem rhs_0 (i : S4096x16.Idx) (r : D2.contr.Idx) : (D2.rhsIdx i r 0).val = (r ⟨0, by decide⟩).val :=
  D2.rhsIdx_val_of_single rfl i r
/-- … in the output's column. -/
theorem rhs_1 (i : S4096x16.Idx) (r : D2.contr.Idx) : (D2.rhsIdx i r 1).val = (i 1).val := by
  unfold DotDims.rhsIdx
  rw [dif_neg (show ¬(1 : Fin S32x16.rank) ∈ D2.rhsBatch by decide), dif_pos (show (1 : Fin S32x16.rank) ∈ D2.rhsNonContracting by decide)]
  rfl

/-- Entry (p, q) of the body's stored value, over any five blocks: the sum over the 32 columns k of the rectified, biased,
    twice row-scaled entry (p, k) times the weight (k, q). The product into the zero accumulator is the sum over the
    contraction index, re-indexed by its one coordinate; under the sum each factor is read at its index. -/
theorem pay_apply (x0 : Vec Ideal S4096x32 .f32) (x1 : Vec Ideal S4096x1 .f32) (x2 : Vec Ideal S1x32 .f32)
    (x3 : Vec Ideal S4096x1 .f32) (x4 : Vec Ideal S32x16 .f32) (p : Fin 4096) (q : Fin 16) :
    k2_pay1 (F := Ideal) x0 x1 x2 x3 x4 (ix2 p q) = Cert.Spec.postAt x0 x1 x2 x3 x4 p q := by
  unfold k2_pay1
  refine (Ideal.matmul_constant_zero_apply D2 none _ _ (ix2 p q)).trans ?_
  refine (Equiv.sum_comp (contrEquiv1 D2 32 rfl rfl).symm _).symm.trans ?_
  unfold Cert.Spec.postAt
  refine Finset.sum_congr rfl fun k _ => ?_
  have hk := contrEquiv1_symm_val D2 32 rfl rfl k
  have el : D2.lhsIdx (ix2 p q) ((contrEquiv1 D2 32 rfl rfl).symm k) = ix2 p k := funext fun a => Fin.ext (by
    match a with
    | ⟨0, _⟩ => exact lhs_0 _ _
    | ⟨1, _⟩ => exact (lhs_1 _ _).trans hk)
  have er : D2.rhsIdx (ix2 p q) ((contrEquiv1 D2 32 rfl rfl).symm k) = ix2 k q := funext fun a => Fin.ext (by
    match a with
    | ⟨0, _⟩ => exact (rhs_0 _ _).trans hk
    | ⟨1, _⟩ => exact rhs_1 _ _)
  rw [el, er]
  simp only [shapeCast_self]
  have e1 := broadcastTo_a1_ab_apply x1 broadcasts_S4096x1_S4096x32 p k
  have e2 := broadcastTo_1b_ab_apply x2 broadcasts_S1x32_S4096x32 p k
  have e3 := broadcastTo_a1_ab_apply x3 broadcasts_S4096x1_S4096x32 p k
  unfold Cert.Spec.actAt
  show max (x0 (ix2 p k) * broadcastTo S4096x32 x1 broadcasts_S4096x1_S4096x32 (ix2 p k)
        + broadcastTo S4096x32 x2 broadcasts_S1x32_S4096x32 (ix2 p k)) (Ideal.ofBits .f32 0x00000000#32)
      * broadcastTo S4096x32 x3 broadcasts_S4096x1_S4096x32 (ix2 p k) * x4 (ix2 k q) = _
  rw [e1, e2, e3]

/-! ## The blocks, read off the arrays -/

/-- The printed index maps over the 32 grid points: the three row-blocked inputs and the output sit at block (t, 0), the
    bias row and the weight matrix at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the aggregate's block at point t is row 4096·t + p of the aggregate. -/
theorem blk0 (c : Dev nD) (t : Fin cfg2.N) (p : Fin 4096) (k : Fin 32) (r : Fin 131072) (hr : r.val = t.val * 4096 + p.val) :
    (iblk2 V c 0 t : Vec Ideal S4096x32 .f32) (ix2 p k) = (V c main_v39 : S131072x32.Idx → EReal) (ix2 r k) := by
  obtain ⟨e0, e1, -⟩ := idx_facts t
  show V c main_v39 (((cfg2.win 0).blk t).view.emb (ix2 p k)) = V c main_v39 (ix2 r k)
  refine congrArg _ (funext fun a => Fin.ext ?_)
  match a with
  | ⟨0, _⟩ => show win2_0.index t (0 : Fin 2) * 4096 + 1 * p.val = r.val; rw [e0, hr]; omega
  | ⟨1, _⟩ => show win2_0.index t (1 : Fin 2) * 32 + 1 * k.val = k.val; rw [e1]; omega

/-- Row p of the destination norm's block at point t is row 4096·t + p of that column. -/
theorem blk1 (c : Dev nD) (t : Fin cfg2.N) (p : Fin 4096) (r : Fin 131072) (hr : r.val = t.val * 4096 + p.val) :
    (iblk2 V c 1 t : Vec Ideal S4096x1 .f32) (ix2 p (0 : Fin 1)) = (V c main_v16 : S131072x1.Idx → EReal) (ix2 r (0 : Fin 1)) := by
  obtain ⟨-, -, e0, e1, -⟩ := idx_facts t
  show V c main_v16 (((cfg2.win 1).blk t).view.emb (ix2 p (0 : Fin 1))) = V c main_v16 (ix2 r (0 : Fin 1))
  refine congrArg _ (funext fun a => Fin.ext ?_)
  match a with
  | ⟨0, _⟩ => show win2_1.index t (0 : Fin 2) * 4096 + 1 * p.val = r.val; rw [e0, hr]; omega
  | ⟨1, _⟩ => show win2_1.index t (1 : Fin 2) * 1 + 1 * 0 = 0; rw [e1]

/-- The bias row's block is the whole row at every point. -/
theorem blk2 (c : Dev nD) (t : Fin cfg2.N) (k : Fin 32) :
    (iblk2 V c 2 t : Vec Ideal S1x32 .f32) (ix2 (0 : Fin 1) k) = (V c main_v40 : S1x32.Idx → EReal) (ix2 (0 : Fin 1) k) := by
  obtain ⟨-, -, -, -, e0, e1, -⟩ := idx_facts t
  show V c main_v40 (((cfg2.win 2).blk t).view.emb (ix2 (0 : Fin 1) k)) = V c main_v40 (ix2 (0 : Fin 1) k)
  refine congrArg _ (funext fun a => Fin.ext ?_)
  match a with
  | ⟨0, _⟩ => show win2_2.index t (0 : Fin 2) * 1 + 1 * 0 = 0; rw [e0]
  | ⟨1, _⟩ => show win2_2.index t (1 : Fin 2) * 32 + 1 * k.val = k.val; rw [e1]; omega

/-- Row p of the source norm's block at point t is row 4096·t + p of that column. -/
theorem blk3 (c : Dev nD) (t : Fin cfg2.N) (p : Fin 4096) (r : Fin 131072) (hr : r.val = t.val * 4096 + p.val) :
    (iblk2 V c 3 t : Vec Ideal S4096x1 .f32) (ix2 p (0 : Fin 1)) = (V c main_v11 : S131072x1.Idx → EReal) (ix2 r (0 : Fin 1)) := by
  obtain ⟨-, -, -, -, -, -, e0, e1, -⟩ := idx_facts t
  show V c main_v11 (((cfg2.win 3).blk t).view.emb (ix2 p (0 : Fin 1))) = V c main_v11 (ix2 r (0 : Fin 1))
  refine congrArg _ (funext fun a => Fin.ext ?_)
  match a with
  | ⟨0, _⟩ => show win2_3.index t (0 : Fin 2) * 4096 + 1 * p.val = r.val; rw [e0, hr]; omega
  | ⟨1, _⟩ => show win2_3.index t (1 : Fin 2) * 1 + 1 * 0 = 0; rw [e1]

/-- The weight matrix's block is the whole matrix at every point. -/
theorem blk4 (c : Dev nD) (t : Fin cfg2.N) (k : Fin 32) (q : Fin 16) :
    (iblk2 V c 4 t : Vec Ideal S32x16 .f32) (ix2 k q) = (V c main_arg8 : S32x16.Idx → EReal) (ix2 k q) := by
  obtain ⟨-, -, -, -, -, -, -, -, e0, e1, -⟩ := idx_facts t
  show V c main_arg8 (((cfg2.win 4).blk t).view.emb (ix2 k q)) = V c main_arg8 (ix2 k q)
  refine congrArg _ (funext fun a => Fin.ext ?_)
  match a with
  | ⟨0, _⟩ => show win2_4.index t (0 : Fin 2) * 32 + 1 * k.val = k.val; rw [e0]; omega
  | ⟨1, _⟩ => show win2_4.index t (1 : Fin 2) * 16 + 1 * q.val = q.val; rw [e1]; omega

/-! ## From blocks to the array -/

/-- What grid point t writes back is block t of the whole-array function of the arrays the region was entered with: the
    body's one store leaves its value of the five input blocks, whose entry (p, q) is the function's entry
    (4096·t + p, q), each block read where the output's rows say. -/
theorem flushed_eq (c : Dev nD) (t : Fin cfg2.N) :
    (dat2 (F := Ideal) V c).flushed 5 t = ((cfg2.win 5).blk t).view.read (Elt Ideal)
      (Cert.Spec.post (V c main_v39) (V c main_v16) (V c main_v40) (V c main_v11) (V c main_arg8)) := by
  show (cfg2.win 5).cut (grid2.coords t) ((dat2 V c).after 5 t) = _
  rw [after2_5]
  unfold out2_5
  rw [View.canon_unit_zero hz]
  simp only [View.ld_unit_zero (S := S4096x32) hz, View.ld_unit_zero (S := S4096x1) hz, View.ld_unit_zero (S := S1x32) hz,
    View.ld_unit_zero (S := S32x16) hz]
  funext j
  obtain ⟨p, q, rfl⟩ : ∃ (p : Fin 4096) (q : Fin 16), j = ix2 p q := ⟨j 0, j 1, eq_ix2 j⟩
  have ht : t.val < 32 := lt_of_lt_of_eq t.isLt N_2
  obtain ⟨r, hr⟩ : ∃ r : Fin 131072, r.val = t.val * 4096 + p.val :=
    ⟨⟨t.val * 4096 + p.val, by have := p.isLt; omega⟩, rfl⟩
  obtain ⟨-, -, -, -, -, -, -, -, -, -, e0, e1⟩ := idx_facts t
  have hemb : ((cfg2.win 5).blk t).view.emb (ix2 p q) = (ix2 r q : S131072x16.Idx) := funext fun a => Fin.ext (by
    match a with
    | ⟨0, _⟩ => show win2_5.index t (0 : Fin 2) * 4096 + 1 * p.val = r.val; rw [e0, hr]; omega
    | ⟨1, _⟩ => show win2_5.index t (1 : Fin 2) * 16 + 1 * q.val = q.val; rw [e1]; omega)
  show k2_pay1 (F := Ideal) (iblk2 V c 0 t) (iblk2 V c 1 t) (iblk2 V c 2 t) (iblk2 V c 3 t) (iblk2 V c 4 t) (ix2 p q)
    = Cert.Spec.post (V c main_v39) (V c main_v16) (V c main_v40) (V c main_v11) (V c main_arg8)
        (((cfg2.win 5).blk t).view.emb (ix2 p q))
  refine Eq.trans ?_ (congrArg (Cert.Spec.post (V c main_v39) (V c main_v16) (V c main_v40) (V c main_v11) (V c main_arg8)) hemb.symm)
  refine (pay_apply (iblk2 V c 0 t) (iblk2 V c 1 t) (iblk2 V c 2 t) (iblk2 V c 3 t) (iblk2 V c 4 t) p q).trans ?_
  show _ = Cert.Spec.postAt (V c main_v39) (V c main_v16) (V c main_v40) (V c main_v11) (V c main_arg8) r q
  unfold Cert.Spec.postAt Cert.Spec.actAt
  refine Finset.sum_congr rfl fun k _ => ?_
  rw [blk0 V c t p k r hr, blk1 V c t p r hr, blk2 V c t k, blk3 V c t p r hr, blk4 V c t k q]

/-- An index of the output array lies in point t's block iff each coordinate lies in the block's range on its axis. -/
theorem mem_blk (t : Fin cfg2.N) (i : S131072x16.Idx) :
    i ∈ ((cfg2.win 5).blk t).view.set ↔ ∀ a : Fin 2, win2_5.index t a * S4096x16.size a ≤ (i a).val
      ∧ (i a).val < win2_5.index t a * S4096x16.size a + S4096x16.size a := by
  show i ∈ ((View.whole main_v41).slice (win2_5.rect t)).set ↔ _
  rw [View.set_slice_whole, Rect.mem_set_unit]
  exact Iff.rfl

/-- Row r of the output lies in the block of grid point r / 4096 (131072 = 32 · 4096), every column is in range, and every
    point writes its block back: the 32 blocks cover the array. -/
theorem cover (i : S131072x16.Idx) :
    ∃ t : Fin cfg2.N, (cfg2.win 5).flush t = true ∧ i ∈ ((cfg2.win 5).blk t).view.set := by
  have hi0 : (i 0).val < 131072 := (i 0).isLt
  have hi1 : (i 1).val < 16 := (i 1).isLt
  obtain ⟨t, ht⟩ : ∃ t : Fin cfg2.N, t.val = (i 0).val / 4096 :=
    ⟨⟨(i 0).val / 4096, lt_of_lt_of_eq (by omega : (i 0).val / 4096 < 32) N_2.symm⟩, rfl⟩
  obtain ⟨-, -, -, -, -, -, -, -, -, -, e0, e1⟩ := idx_facts t
  refine ⟨t, flush2_5 t, ?_⟩
  rw [mem_blk]
  intro a
  match a with
  | ⟨0, _⟩ =>
    show win2_5.index t (0 : Fin 2) * 4096 ≤ (i 0).val ∧ (i 0).val < win2_5.index t (0 : Fin 2) * 4096 + 4096
    rw [e0, ht]; omega
  | ⟨1, _⟩ =>
    show win2_5.index t (1 : Fin 2) * 16 ≤ (i 1).val ∧ (i 1).val < win2_5.index t (1 : Fin 2) * 16 + 16
    rw [e1]; omega

/-- The output array after the 32 grid points is the layer's post-processing and next projection of the arrays the region was
    entered with. -/
theorem arr (c : Dev nD) :
    (dat2 (F := Ideal) V c).arrAt 5 cfg2.N = Cert.Spec.post (V c main_v39) (V c main_v16) (V c main_v40) (V c main_v11) (V c main_arg8) :=
  (dat2 (F := Ideal) V c).arrAt_eq_of_cover 5 _ (fun t _ => flushed_eq V c t) cover
end Cert.KernelIdeal.Reg2
end
-- ==== Proof.Region3.lean ====
/-
  The last layer's post-processing region, read as one whole-array function.

  The region walks 32 grid points. At point `t` it holds rows `4096·t … 4096·t + 4095` of the aggregate `a` (131072 × 16) and
  of the destination-norm column `d` (131072 × 1), and the whole bias row `b` (1 × 16); it writes back the same rows of the
  output, each entry being  max(a[r,k] · d[r,0] + b[0,k], 0).  Since 131072 = 32 · 4096 the 32 row blocks tile the output, so
  after the last point the output array is `Cert.Spec.fin a d b` at every index.

  Steps: the body's value at one entry of a block (`pay_apply`); the block index of every window at every point, decided
  over the grid (`idx_facts`); each block's entry as an entry of its array (`out_emb`, `blk0_apply`, `blk1_apply`,
  `blk2_apply`); what a point writes back is its block of the whole-array function (`flushed_eq`); the blocks cover the
  array (`mem_blk`, `cover`); the array after the region (`arr`).
-/
import proofs.«104229_j63204738728607_1_alg».proof.Proof.Gen.KernelIdeal.Frame
import proofs.«104229_j63204738728607_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Reg3
open Cert.KernelIdeal Cert.KernelIdeal.Gen Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by fin_cases a <;> rfl

/-- A column `[a, 1]` broadcast to `[a, b]` reads, at `(p, c)`, the operand's row `p`. -/
theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at row `p`, column `q` of a block: the block's aggregate entry times its row's norm, plus the bias of
    the column, rectified. The casts to the same shape are identities; the norm column is broadcast along the columns and
    the bias row along the rows. -/
theorem pay_apply (x0 : Vec Ideal S4096x16 .f32) (x1 : Vec Ideal S4096x1 .f32) (x2 : Vec Ideal S1x16 .f32)
    (p : Fin 4096) (q : Fin 16) :
    k3_pay1 (F := Ideal) x0 x1 x2 (ix2 p q) = Cert.Spec.actAt x0 x1 x2 p q := by
  unfold k3_pay1
  rw [shapeCast_self, shapeCast_self, shapeCast_self]
  show max (x0 (ix2 p q) * broadcastTo S4096x16 x1 broadcasts_S4096x1_S4096x16 (ix2 p q)
    + broadcastTo S4096x16 x2 broadcasts_S1x16_S4096x16 (ix2 p q)) Cert.Spec.z0 = _
  rw [bcast_col x1 _ p q, broadcastTo_1b_ab_apply x2 _ p q]
  rfl

/-- The block index of each window at each of the 32 points: the three row-blocked windows (aggregate, norm column,
    output) are at block `(t, 0)`, the bias row at `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- A grid point is below 32. -/
theorem lt_N (t : Fin cfg3.N) : t.val < 32 := t.isLt.trans_eq N_3

/-- The output block's entry `(p, q)` at grid point `t` is the array's entry `(4096·t + p, q)`. -/
theorem out_emb (t : Fin cfg3.N) (p : Fin 4096) (q : Fin 16) (r : Fin 131072) (hr : r.val = t.val * 4096 + p.val) :
    ((cfg3.win 3).blk t).view.emb (ix2 p q) = ix2 r q := by
  obtain ⟨-, -, -, -, -, -, e0, e1⟩ := idx_facts t
  funext a; apply Fin.ext
  match a with
  | ⟨0, _⟩ => show win3_3.index t (0 : Fin 2) * 4096 + 1 * p.val = r.val; omega
  | ⟨1, _⟩ => show win3_3.index t (1 : Fin 2) * 16 + 1 * q.val = q.val; omega

/-- The aggregate's block at point `t` holds rows `4096·t …` of the aggregate. -/
theorem blk0_apply (c : Dev nD) (t : Fin cfg3.N) (p : Fin 4096) (q : Fin 16) (r : Fin 131072)
    (hr : r.val = t.val * 4096 + p.val) :
    iblk3 V c 0 t (ix2 p q) = V c main_v51 (ix2 r q) := by
  obtain ⟨e0, e1, -⟩ := idx_facts t
  show V c main_v51 (((cfg3.win 0).blk t).view.emb (ix2 p q)) = V c main_v51 (ix2 r q)
  refine congrArg (V c main_v51) (funext fun a => Fin.ext ?_)
  match a with
  | ⟨0, _⟩ => show win3_0.index t (0 : Fin 2) * 4096 + 1 * p.val = r.val; omega
  | ⟨1, _⟩ => show win3_0.index t (1 : Fin 2) * 16 + 1 * q.val = q.val; omega

/-- The norm column's block at point `t` holds rows `4096·t …` of the column. -/
theorem blk1_apply (c : Dev nD) (t : Fin cfg3.N) (p : Fin 4096) (r : Fin 131072)
    (hr : r.val = t.val * 4096 + p.val) :
    iblk3 V c 1 t (ix2 p (0 : Fin 1)) = V c main_v16 (ix2 r (0 : Fin 1)) := by
  obtain ⟨-, -, e0, e1, -⟩ := idx_facts t
  show V c main_v16 (((cfg3.win 1).blk t).view.emb (ix2 p (0 : Fin 1))) = V c main_v16 (ix2 r (0 : Fin 1))
  refine congrArg (V c main_v16) (funext fun a => Fin.ext ?_)
  match a with
  | ⟨0, _⟩ => show win3_1.index t (0 : Fin 2) * 4096 + 1 * p.val = r.val; omega
  | ⟨1, _⟩ => show win3_1.index t (1 : Fin 2) * 1 + 1 * 0 = 0; omega

/-- The bias row's block is the whole row at every point. -/
theorem blk2_apply (c : Dev nD) (t : Fin cfg3.N) (q : Fin 16) :
    iblk3 V c 2 t (ix2 (0 : Fin 1) q) = V c main_v52 (ix2 (0 : Fin 1) q) := by
  obtain ⟨-, -, -, -, e0, e1, -⟩ := idx_facts t
  show V c main_v52 (((cfg3.win 2).blk t).view.emb (ix2 (0 : Fin 1) q)) = V c main_v52 (ix2 (0 : Fin 1) q)
  refine congrArg (V c main_v52) (funext fun a => Fin.ext ?_)
  match a with
  | ⟨0, _⟩ => show win3_2.index t (0 : Fin 2) * 1 + 1 * 0 = 0; omega
  | ⟨1, _⟩ => show win3_2.index t (1 : Fin 2) * 16 + 1 * q.val = q.val; omega

/-- An entry of the rectified, biased, row-scaled aggregate depends only on the three entries it reads. -/
theorem actAt_congr {N N' K : Nat} (a : Cert.Spec.A2 N K) (d : Cert.Spec.A2 N 1) (b : Cert.Spec.A2 1 K)
    (a' : Cert.Spec.A2 N' K) (d' : Cert.Spec.A2 N' 1) (b' : Cert.Spec.A2 1 K) (r : Fin N) (r' : Fin N') (k : Fin K)
    (ha : a (ix2 r k) = a' (ix2 r' k)) (hd : d (ix2 r (0 : Fin 1)) = d' (ix2 r' (0 : Fin 1)))
    (hb : b (ix2 (0 : Fin 1) k) = b' (ix2 (0 : Fin 1) k)) :
    Cert.Spec.actAt a d b r k = Cert.Spec.actAt a' d' b' r' k := by
  unfold Cert.Spec.actAt
  rw [ha, hd, hb]

/-- What grid point `t` writes back is block `t` of the rectified, biased, row-scaled aggregate: the body's one store
    leaves its value over the point's input blocks, and entry `(p, q)` of those blocks is entry `(4096·t + p, q)` of
    the arrays (row `4096·t + p` of the norm column, column `q` of the bias row). -/
theorem flushed_eq (c : Dev nD) (t : Fin cfg3.N) :
    (dat3 (F := Ideal) V c).flushed 3 t = ((cfg3.win 3).blk t).view.read (Elt Ideal)
      (Cert.Spec.fin (V c main_v51) (V c main_v16) (V c main_v52)) := by
  show (cfg3.win 3).cut (grid3.coords t) ((dat3 V c).after 3 t) = _
  rw [after3_3]
  unfold out3_3
  rw [View.canon_unit_zero hz]
  simp only [View.ld_unit_zero (S := S4096x16) hz, View.ld_unit_zero (S := S4096x1) hz, View.ld_unit_zero (S := S1x16) hz]
  funext j
  obtain ⟨p, q, rfl⟩ : ∃ (p : Fin 4096) (q : Fin 16), j = ix2 p q := ⟨j 0, j 1, eq_ix2 j⟩
  have ht : t.val < 32 := lt_N t
  have hr : t.val * 4096 + p.val < 131072 := by have := p.isLt; omega
  show k3_pay1 (F := Ideal) (iblk3 V c 0 t) (iblk3 V c 1 t) (iblk3 V c 2 t) (ix2 p q)
      = Cert.Spec.fin (V c main_v51) (V c main_v16) (V c main_v52) (((cfg3.win 3).blk t).view.emb (ix2 p q))
  rw [out_emb t p q ⟨t.val * 4096 + p.val, hr⟩ rfl]
  refine (pay_apply _ _ _ p q).trans ?_
  exact actAt_congr (iblk3 V c 0 t) (iblk3 V c 1 t) (iblk3 V c 2 t) (V c main_v51) (V c main_v16) (V c main_v52)
    p ⟨t.val * 4096 + p.val, hr⟩ q (blk0_apply V c t p q ⟨t.val * 4096 + p.val, hr⟩ rfl)
    (blk1_apply V c t p ⟨t.val * 4096 + p.val, hr⟩ rfl) (blk2_apply V c t q)

/-- An index of the array is in point `t`'s block iff each coordinate is in the block's range on its axis. -/
theorem mem_blk (t : Fin cfg3.N) (i : S131072x16.Idx) :
    i ∈ ((cfg3.win 3).blk t).view.set ↔ ∀ a : Fin 2, win3_3.index t a * S4096x16.size a ≤ (i a).val
      ∧ (i a).val < win3_3.index t a * S4096x16.size a + S4096x16.size a := by
  show i ∈ ((View.whole main_v53).slice (win3_3.rect t)).set ↔ _
  rw [View.set_slice_whole, Rect.mem_set_unit]
  exact Iff.rfl

/-- Every entry of the array lies in some point's block: row `r` in the block of point `r / 4096` (131072 = 32 · 4096),
    every column in the block's 16 columns; and every point writes its block back. -/
theorem cover (i : S131072x16.Idx) :
    ∃ t : Fin cfg3.N, (cfg3.win 3).flush t = true ∧ i ∈ ((cfg3.win 3).blk t).view.set := by
  have hi0 : (i 0).val < 131072 := (i 0).isLt
  have hi1 : (i 1).val < 16 := (i 1).isLt
  have hlt : (i 0).val / 4096 < cfg3.N := by rw [show cfg3.N = 32 from N_3]; omega
  refine ⟨⟨(i 0).val / 4096, hlt⟩, flush3_3 _, ?_⟩
  rw [mem_blk]
  obtain ⟨-, -, -, -, -, -, e0, e1⟩ := idx_facts ⟨(i 0).val / 4096, hlt⟩
  intro a
  match a with
  | ⟨0, _⟩ =>
    show win3_3.index ⟨(i 0).val / 4096, hlt⟩ (0 : Fin 2) * 4096 ≤ (i 0).val
      ∧ (i 0).val < win3_3.index ⟨(i 0).val / 4096, hlt⟩ (0 : Fin 2) * 4096 + 4096
    rw [e0]; show (i 0).val / 4096 * 4096 ≤ (i 0).val ∧ (i 0).val < (i 0).val / 4096 * 4096 + 4096; omega
  | ⟨1, _⟩ =>
    show win3_3.index ⟨(i 0).val / 4096, hlt⟩ (1 : Fin 2) * 16 ≤ (i 1).val
      ∧ (i 1).val < win3_3.index ⟨(i 0).val / 4096, hlt⟩ (1 : Fin 2) * 16 + 16
    rw [e1]; omega

/-- After the region's 32 grid points the output array is the rectified, biased, row-scaled aggregate of the arrays the
    region was entered with, entry by entry. -/
theorem arr (c : Dev nD) :
    (dat3 (F := Ideal) V c).arrAt 3 cfg3.N = Cert.Spec.fin (V c main_v51) (V c main_v16) (V c main_v52) :=
  (dat3 (F := Ideal) V c).arrAt_eq_of_cover 3 (Cert.Spec.fin (V c main_v51) (V c main_v16) (V c main_v52))
    (fun t _ => flushed_eq V c t) cover
end Cert.KernelIdeal.Reg3
end
-- ==== Proof.RefStages.lean ====
import proofs.«104229_j63204738728607_1_alg».proof.Proof.Gen.ReferenceIdeal.Read
import proofs.«104229_j63204738728607_1_alg».proof.Proof.Spec

noncomputable section
namespace Cert.ReferenceIdeal.Stage
open Cert.ReferenceIdeal Cert.ReferenceIdeal.Read Idealize.ShloMosaic Idealize.ShloMosaic.ValueIdx

/-!
  The reference program's four dense stages are the whole-array functions of the specification, applied to
  the earlier stages.

  * The first projection: entry (r, j) is Σ_k (x[r,k] · n[r,0]) · w[k,j], with n the source-degree norm column.
  * The two middle layers: entry (r, j) is Σ_k (max(a[r,k] · d[r,0] + b[0,k], 0) · n[r,0]) · w[k,j], with a the
    aggregated messages, d the destination-degree norm column and b the bias as a row.
  * The last layer: entry (r, k) is max(a[r,k] · d[r,0] + b[0,k], 0).

  Each proof reads the stage at an index (r, j), pushes the index through the pointwise operations and the
  broadcasts down to the earlier stages, identifies the composed index maps with explicit coordinate pairs, and
  compares the summands term by term. The rectifier's zero is the same float word on both sides and is never
  evaluated.
-/

/-- The row-scaled input projected by the first weight matrix. -/
theorem v19_eq (x0 : (⟨S131072x256, .f32⟩ : BufTy).Contents (Elt Ideal)) (x1 : (⟨S2097152, .i32⟩ : BufTy).Contents (Elt Ideal)) (x4 : (⟨S256x64, .f32⟩ : BufTy).Contents (Elt Ideal)) :
    val_main_v19 (F := Ideal) x0 x1 x4 = Cert.Spec.proj x0 (val_main_v11 (F := Ideal) x1) x4 := by
  funext i
  obtain ⟨r, j, rfl⟩ : ∃ (r : Fin 131072) (j : Fin 64), i = ix2 r j := ⟨i 0, i 1, eq_ix2 i⟩
  rw [val_main_v19_apply, Cert.Spec.proj_ix2]
  unfold Cert.Spec.projAt
  refine Finset.sum_congr rfl fun k _ => ?_
  -- the summand's operands sit at (r, k) and (k, j); the norm column is read at (r, 0)
  have el : lidx_main_v19 (ix2 r j) k = ix2 r k :=
    funext fun a => Fin.ext (by match a with | ⟨0, _⟩ => rfl | ⟨1, _⟩ => rfl)
  have er : ridx_main_v19 (ix2 r j) k = ix2 k j :=
    funext fun a => Fin.ext (by match a with | ⟨0, _⟩ => rfl | ⟨1, _⟩ => rfl)
  have en : idx_main_v17 (ix2 r k) = ix2 r (0 : Fin 1) :=
    funext fun a => Fin.ext (by match a with | ⟨0, _⟩ => rfl | ⟨1, _⟩ => rfl)
  rw [el, er, val_main_v18_apply, val_main_v17_apply, en]
  rfl

/-- The first layer's aggregate, normalised, biased, rectified, rescaled and projected by the second weight matrix. -/
theorem v38_eq (x0 : (⟨S131072x256, .f32⟩ : BufTy).Contents (Elt Ideal)) (x1 x2 : (⟨S2097152, .i32⟩ : BufTy).Contents (Elt Ideal)) (x4 : (⟨S256x64, .f32⟩ : BufTy).Contents (Elt Ideal)) (x5 : (⟨S64, .f32⟩ : BufTy).Contents (Elt Ideal)) (x6 : (⟨S64x32, .f32⟩ : BufTy).Contents (Elt Ideal)) :
    val_main_v38 (F := Ideal) x0 x1 x2 x4 x5 x6
      = Cert.Spec.post (val_main_v29 (F := Ideal) x0 x1 x2 x4) (val_main_v16 (F := Ideal) x2) (val_main_v32 (F := Ideal) x5) (val_main_v11 (F := Ideal) x1) x6 := by
  funext i
  obtain ⟨r, j, rfl⟩ : ∃ (r : Fin 131072) (j : Fin 32), i = ix2 r j := ⟨i 0, i 1, eq_ix2 i⟩
  rw [val_main_v38_apply, Cert.Spec.post_ix2]
  unfold Cert.Spec.postAt Cert.Spec.actAt
  refine Finset.sum_congr rfl fun k _ => ?_
  -- the summand's operands sit at (r, k) and (k, j); both norm columns are read at (r, 0), the bias row at (0, k)
  have el : lidx_main_v38 (ix2 r j) k = ix2 r k :=
    funext fun a => Fin.ext (by match a with | ⟨0, _⟩ => rfl | ⟨1, _⟩ => rfl)
  have er : ridx_main_v38 (ix2 r j) k = ix2 k j :=
    funext fun a => Fin.ext (by match a with | ⟨0, _⟩ => rfl | ⟨1, _⟩ => rfl)
  have ed : idx_main_v30 (ix2 r k) = ix2 r (0 : Fin 1) :=
    funext fun a => Fin.ext (by match a with | ⟨0, _⟩ => rfl | ⟨1, _⟩ => rfl)
  have eb : idx_main_v33 (ix2 r k) = ix2 (0 : Fin 1) k :=
    funext fun a => Fin.ext (by match a with | ⟨0, _⟩ => rfl | ⟨1, _⟩ => rfl)
  have en : idx_main_v36 (ix2 r k) = ix2 r (0 : Fin 1) :=
    funext fun a => Fin.ext (by match a with | ⟨0, _⟩ => rfl | ⟨1, _⟩ => rfl)
  rw [el, er, val_main_v37_apply, val_main_v35_apply, val_main_v34_apply, val_main_v31_apply,
    val_main_v30_apply, val_main_v33_apply, val_main_v36_apply, val_main_call0_v0_apply,
    val_main_call0_cst_apply, ed, eb, en]
  rfl

/-- The second layer's aggregate, normalised, biased, rectified, rescaled and projected by the third weight matrix. -/
theorem v57_eq (x0 : (⟨S131072x256, .f32⟩ : BufTy).Contents (Elt Ideal)) (x1 x2 : (⟨S2097152, .i32⟩ : BufTy).Contents (Elt Ideal)) (x4 : (⟨S256x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (x8 : (⟨S32x16, .f32⟩ : BufTy).Contents (Elt Ideal)) :
    val_main_v57 (F := Ideal) x0 x1 x2 x4 x5 x6 x7 x8
      = Cert.Spec.post (val_main_v48 (F := Ideal) x0 x1 x2 x4 x5 x6) (val_main_v16 (F := Ideal) x2) (val_main_v51 (F := Ideal) x7) (val_main_v11 (F := Ideal) x1) x8 := by
  funext i
  obtain ⟨r, j, rfl⟩ : ∃ (r : Fin 131072) (j : Fin 16), i = ix2 r j := ⟨i 0, i 1, eq_ix2 i⟩
  rw [val_main_v57_apply, Cert.Spec.post_ix2]
  unfold Cert.Spec.postAt Cert.Spec.actAt
  refine Finset.sum_congr rfl fun k _ => ?_
  -- the summand's operands sit at (r, k) and (k, j); both norm columns are read at (r, 0), the bias row at (0, k)
  have el : lidx_main_v57 (ix2 r j) k = ix2 r k :=
    funext fun a => Fin.ext (by match a with | ⟨0, _⟩ => rfl | ⟨1, _⟩ => rfl)
  have er : ridx_main_v57 (ix2 r j) k = ix2 k j :=
    funext fun a => Fin.ext (by match a with | ⟨0, _⟩ => rfl | ⟨1, _⟩ => rfl)
  have ed : idx_main_v49 (ix2 r k) = ix2 r (0 : Fin 1) :=
    funext fun a => Fin.ext (by match a with | ⟨0, _⟩ => rfl | ⟨1, _⟩ => rfl)
  have eb : idx_main_v52 (ix2 r k) = ix2 (0 : Fin 1) k :=
    funext fun a => Fin.ext (by match a with | ⟨0, _⟩ => rfl | ⟨1, _⟩ => rfl)
  have en : idx_main_v55 (ix2 r k) = ix2 r (0 : Fin 1) :=
    funext fun a => Fin.ext (by match a with | ⟨0, _⟩ => rfl | ⟨1, _⟩ => rfl)
  rw [el, er, val_main_v56_apply, val_main_v54_apply, val_main_v53_apply, val_main_v50_apply,
    val_main_v49_apply, val_main_v52_apply, val_main_v55_apply, val_main_call1_v0_apply,
    val_main_call1_cst_apply, ed, eb, en]
  rfl

/-- The third layer's aggregate, normalised, biased and rectified. -/
theorem v73_eq (x0 : (⟨S131072x256, .f32⟩ : BufTy).Contents (Elt Ideal)) (x1 x2 : (⟨S2097152, .i32⟩ : BufTy).Contents (Elt Ideal)) (x4 : (⟨S256x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (x8 : (⟨S32x16, .f32⟩ : BufTy).Contents (Elt Ideal)) (x9 : (⟨S16, .f32⟩ : BufTy).Contents (Elt Ideal)) :
    val_main_v73 (F := Ideal) x0 x1 x2 x4 x5 x6 x7 x8 x9
      = Cert.Spec.fin (val_main_v67 (F := Ideal) x0 x1 x2 x4 x5 x6 x7 x8) (val_main_v16 (F := Ideal) x2) (val_main_v70 (F := Ideal) x9) := by
  funext i
  obtain ⟨r, k, rfl⟩ : ∃ (r : Fin 131072) (k : Fin 16), i = ix2 r k := ⟨i 0, i 1, eq_ix2 i⟩
  -- the norm column is read at (r, 0), the bias row at (0, k)
  have ed : idx_main_v68 (ix2 r k) = ix2 r (0 : Fin 1) :=
    funext fun a => Fin.ext (by match a with | ⟨0, _⟩ => rfl | ⟨1, _⟩ => rfl)
  have eb : idx_main_v71 (ix2 r k) = ix2 (0 : Fin 1) k :=
    funext fun a => Fin.ext (by match a with | ⟨0, _⟩ => rfl | ⟨1, _⟩ => rfl)
  rw [val_main_v73_apply, val_main_v72_apply, val_main_v69_apply, val_main_v68_apply,
    val_main_v71_apply, val_main_call2_v0_apply, val_main_call2_cst_apply, ed, eb, Cert.Spec.fin_ix2]
  unfold Cert.Spec.actAt
  rfl

end Cert.ReferenceIdeal.Stage
end
-- ==== Proof.Chain.lean ====
import proofs.«104229_j63204738728607_1_alg».proof.Proof.Gen.KernelIdeal.Frame
import proofs.«104229_j63204738728607_1_alg».proof.Proof.Gen.ReferenceIdeal.Read
import proofs.«104229_j63204738728607_1_alg».proof.Proof.Spec
import proofs.«104229_j63204738728607_1_alg».proof.Proof.Region0
import proofs.«104229_j63204738728607_1_alg».proof.Proof.Region1
import proofs.«104229_j63204738728607_1_alg».proof.Proof.Region2
import proofs.«104229_j63204738728607_1_alg».proof.Proof.Region3
import proofs.«104229_j63204738728607_1_alg».proof.Proof.RefStages
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

/-!
  The idealized kernel program's result, read back through its nine segments. At every segment boundary the buffers
  the later segments read hold a stage of the reference computation (the generated read-back's `val_main_vN`: operation
  N's value as a function of the arguments): the two degree norms after the first host stretch; after each Pallas
  region the projection the reference computes by `dot_general` (the region's output array is the whole-array
  function of Spec.lean of the arrays it was entered with, and so is the reference's stage); after each host stretch in
  between the same gather and scatter-add of it, and the bias as a row; after the last stretch the pooled logits. A host
  stretch applies to its operands exactly the operations the reference applies to its own, so once the operands are
  identified the two terms are the same term. Arrays a segment does not write are carried along unchanged.
-/

namespace Cert.KernelIdeal.Chain

open Cert.KernelIdeal Cert.KernelIdeal.Gen Cert.ReferenceIdeal.Read
open Idealize.ShloMosaic Idealize.ShloMosaic.TcCoe Idealize.SL.Sem Idealize.ShloMosaic.StableHlo Idealize.ShloMosaic.ValueIdx

/-! ## A bias vector as a one-row array: the kernel's reshape is the reference's broadcast -/

theorem row64 (x : (⟨1, ![64]⟩ : Shape).Idx → EReal) (h : (⟨1, ![64]⟩ : Shape).ShapeCasts ⟨2, ![1, 64]⟩) :
    shapeCast ⟨2, ![1, 64]⟩ x h = val_main_v32 (F := Ideal) x := by
  funext i
  obtain ⟨u, k, rfl⟩ : ∃ (u : Fin 1) (k : Fin 64), i = ix2 u k := ⟨i 0, i 1, eq_ix2 i⟩
  rw [val_main_v32_apply]
  refine (shapeCast_a_1a_apply x h u k).trans (congrArg x ?_)
  funext a; match a with | ⟨0, _⟩ => rfl
theorem row32 (x : (⟨1, ![32]⟩ : Shape).Idx → EReal) (h : (⟨1, ![32]⟩ : Shape).ShapeCasts ⟨2, ![1, 32]⟩) :
    shapeCast ⟨2, ![1, 32]⟩ x h = val_main_v51 (F := Ideal) x := by
  funext i
  obtain ⟨u, k, rfl⟩ : ∃ (u : Fin 1) (k : Fin 32), i = ix2 u k := ⟨i 0, i 1, eq_ix2 i⟩
  rw [val_main_v51_apply]
  refine (shapeCast_a_1a_apply x h u k).trans (congrArg x ?_)
  funext a; match a with | ⟨0, _⟩ => rfl
theorem row16 (x : (⟨1, ![16]⟩ : Shape).Idx → EReal) (h : (⟨1, ![16]⟩ : Shape).ShapeCasts ⟨2, ![1, 16]⟩) :
    shapeCast ⟨2, ![1, 16]⟩ x h = val_main_v70 (F := Ideal) x := by
  funext i
  obtain ⟨u, k, rfl⟩ : ∃ (u : Fin 1) (k : Fin 16), i = ix2 u k := ⟨i 0, i 1, eq_ix2 i⟩
  rw [val_main_v70_apply]
  refine (shapeCast_a_1a_apply x h u k).trans (congrArg x ?_)
  funext a; match a with | ⟨0, _⟩ => rfl

variable (m : (ℓ : Loc nD τ sig) → Buf (Elt Ideal) ℓ) (ρ : Dev nD → PrngReg) (c : Dev nD)

/-! ## After the first host stretch (region 0's entry): the two degree norms -/

theorem w1_arg0 : V1 m ρ c main_arg0 = (m ((c : Thread nD τ).loc main_arg0)) := by
  dsimp only [V1, W1, hostOps0]; after_results
theorem w1_arg1 : V1 m ρ c main_arg1 = (m ((c : Thread nD τ).loc main_arg1)) := by
  dsimp only [V1, W1, hostOps0]; after_results
theorem w1_arg2 : V1 m ρ c main_arg2 = (m ((c : Thread nD τ).loc main_arg2)) := by
  dsimp only [V1, W1, hostOps0]; after_results
theorem w1_arg3 : V1 m ρ c main_arg3 = (m ((c : Thread nD τ).loc main_arg3)) := by
  dsimp only [V1, W1, hostOps0]; after_results
theorem w1_arg4 : V1 m ρ c main_arg4 = (m ((c : Thread nD τ).loc main_arg4)) := by
  dsimp only [V1, W1, hostOps0]; after_results
theorem w1_arg5 : V1 m ρ c main_arg5 = (m ((c : Thread nD τ).loc main_arg5)) := by
  dsimp only [V1, W1, hostOps0]; after_results
theorem w1_arg6 : V1 m ρ c main_arg6 = (m ((c : Thread nD τ).loc main_arg6)) := by
  dsimp only [V1, W1, hostOps0]; after_results
theorem w1_arg7 : V1 m ρ c main_arg7 = (m ((c : Thread nD τ).loc main_arg7)) := by
  dsimp only [V1, W1, hostOps0]; after_results
theorem w1_arg8 : V1 m ρ c main_arg8 = (m ((c : Thread nD τ).loc main_arg8)) := by
  dsimp only [V1, W1, hostOps0]; after_results
theorem w1_arg9 : V1 m ρ c main_arg9 = (m ((c : Thread nD τ).loc main_arg9)) := by
  dsimp only [V1, W1, hostOps0]; after_results
theorem w1_arg10 : V1 m ρ c main_arg10 = (m ((c : Thread nD τ).loc main_arg10)) := by
  dsimp only [V1, W1, hostOps0]; after_results
theorem w1_arg11 : V1 m ρ c main_arg11 = (m ((c : Thread nD τ).loc main_arg11)) := by
  dsimp only [V1, W1, hostOps0]; after_results
/-- The source norm: out-degree, clamped below by one, to the power −1/2, as a column. -/
theorem w1_v11 : V1 m ρ c main_v11 = val_main_v11 (F := Ideal) (m ((c : Thread nD τ).loc main_arg1)) := by
  dsimp only [V1, W1, hostOps0]; after_results; rfl
/-- The destination norm, from the in-degree. -/
theorem w1_v16 : V1 m ρ c main_v16 = val_main_v16 (F := Ideal) (m ((c : Thread nD τ).loc main_arg2)) := by
  dsimp only [V1, W1, hostOps0]; after_results; rfl

/-! ## After region 0: the first projection -/

theorem w2_v17 : V2 m ρ c main_v17 = val_main_v19 (F := Ideal) (m ((c : Thread nD τ).loc main_arg0)) (m ((c : Thread nD τ).loc main_arg1)) (m ((c : Thread nD τ).loc main_arg4)) :=
  (W2_arr m ρ c 3).trans ((Cert.KernelIdeal.Reg0.arr (V1 m ρ) c).trans (by
    rw [w1_arg0, w1_v11, w1_arg4]; exact (Cert.ReferenceIdeal.Stage.v19_eq _ _ _).symm))
theorem w2_v11 : V2 m ρ c main_v11 = val_main_v11 (F := Ideal) (m ((c : Thread nD τ).loc main_arg1)) :=
  ((W2_arr m ρ c 1).trans (((dat0 (V1 m ρ) c).arrAt_in 1 rfl _).trans (A_eq0 (V1 m ρ) c 1))).trans (w1_v11 m ρ c)
theorem w2_v16 : V2 m ρ c main_v16 = val_main_v16 (F := Ideal) (m ((c : Thread nD τ).loc main_arg2)) :=
  (W2_of_ne m ρ c main_v16 (by decide)).trans (w1_v16 m ρ c)
theorem w2_arg1 : V2 m ρ c main_arg1 = (m ((c : Thread nD τ).loc main_arg1)) :=
  (W2_of_ne m ρ c main_arg1 (by decide)).trans (w1_arg1 m ρ c)
theorem w2_arg2 : V2 m ρ c main_arg2 = (m ((c : Thread nD τ).loc main_arg2)) :=
  (W2_of_ne m ρ c main_arg2 (by decide)).trans (w1_arg2 m ρ c)
theorem w2_arg3 : V2 m ρ c main_arg3 = (m ((c : Thread nD τ).loc main_arg3)) :=
  (W2_of_ne m ρ c main_arg3 (by decide)).trans (w1_arg3 m ρ c)
theorem w2_arg5 : V2 m ρ c main_arg5 = (m ((c : Thread nD τ).loc main_arg5)) :=
  (W2_of_ne m ρ c main_arg5 (by decide)).trans (w1_arg5 m ρ c)
theorem w2_arg6 : V2 m ρ c main_arg6 = (m ((c : Thread nD τ).loc main_arg6)) :=
  (W2_of_ne m ρ c main_arg6 (by decide)).trans (w1_arg6 m ρ c)
theorem w2_arg7 : V2 m ρ c main_arg7 = (m ((c : Thread nD τ).loc main_arg7)) :=
  (W2_of_ne m ρ c main_arg7 (by decide)).trans (w1_arg7 m ρ c)
theorem w2_arg8 : V2 m ρ c main_arg8 = (m ((c : Thread nD τ).loc main_arg8)) :=
  (W2_of_ne m ρ c main_arg8 (by decide)).trans (w1_arg8 m ρ c)
theorem w2_arg9 : V2 m ρ c main_arg9 = (m ((c : Thread nD τ).loc main_arg9)) :=
  (W2_of_ne m ρ c main_arg9 (by decide)).trans (w1_arg9 m ρ c)
theorem w2_arg10 : V2 m ρ c main_arg10 = (m ((c : Thread nD τ).loc main_arg10)) :=
  (W2_of_ne m ρ c main_arg10 (by decide)).trans (w1_arg10 m ρ c)
theorem w2_arg11 : V2 m ρ c main_arg11 = (m ((c : Thread nD τ).loc main_arg11)) :=
  (W2_of_ne m ρ c main_arg11 (by decide)).trans (w1_arg11 m ρ c)

/-! ## After the second host stretch (region 1's entry): the first aggregate, the first bias as a row -/

set_option maxHeartbeats 2000000 in
theorem w3_v27 : V3 m ρ c main_v27 = val_main_v29 (F := Ideal) (m ((c : Thread nD τ).loc main_arg0)) (m ((c : Thread nD τ).loc main_arg1)) (m ((c : Thread nD τ).loc main_arg2)) (m ((c : Thread nD τ).loc main_arg4)) := by
  have h17 : W2 m ρ c (Proc.devRef .tc main_v17) = _ := w2_v17 m ρ c
  have h1 : W2 m ρ c (Proc.devRef .tc main_arg1) = _ := w2_arg1 m ρ c
  have h2 : W2 m ρ c (Proc.devRef .tc main_arg2) = _ := w2_arg2 m ρ c
  dsimp only [V3, W3, hostOps1]
  generalize W2 m ρ c = W at h17 h1 h2 ⊢
  after_results
  rw [h17, h1, h2]
  unfold val_main_v29 val_main_v28 val_main_v27 val_main_v26 val_main_v25 val_main_v24 val_main_v23 val_main_v22 val_main_v21 val_main_v20 val_main_c val_main_c_6 val_main_cst_7
  generalize val_main_v19 (F := Ideal) (m ((c : Thread nD τ).loc main_arg0)) (m ((c : Thread nD τ).loc main_arg1)) (m ((c : Thread nD τ).loc main_arg4)) = y
  generalize (m ((c : Thread nD τ).loc main_arg1)) = x1
  generalize (m ((c : Thread nD τ).loc main_arg2)) = x2
  rfl
theorem w3_v28 : V3 m ρ c main_v28 = val_main_v32 (F := Ideal) (m ((c : Thread nD τ).loc main_arg5)) := by
  have h5 : W2 m ρ c (Proc.devRef .tc main_arg5) = _ := w2_arg5 m ρ c
  dsimp only [V3, W3, hostOps1]
  generalize W2 m ρ c = W at h5 ⊢
  after_results
  rw [h5]
  exact row64 _ _
theorem w3_v11 : V3 m ρ c main_v11 = val_main_v11 (F := Ideal) (m ((c : Thread nD τ).loc main_arg1)) := by
  have h : W2 m ρ c (Proc.devRef .tc main_v11) = _ := w2_v11 m ρ c
  dsimp only [V3, W3, hostOps1]
  generalize W2 m ρ c = W at h ⊢
  after_results; exact h
theorem w3_v16 : V3 m ρ c main_v16 = val_main_v16 (F := Ideal) (m ((c : Thread nD τ).loc main_arg2)) := by
  have h : W2 m ρ c (Proc.devRef .tc main_v16) = _ := w2_v16 m ρ c
  dsimp only [V3, W3, hostOps1]
  generalize W2 m ρ c = W at h ⊢
  after_results; exact h
theorem w3_arg1 : V3 m ρ c main_arg1 = (m ((c : Thread nD τ).loc main_arg1)) := by
  have h : W2 m ρ c (Proc.devRef .tc main_arg1) = _ := w2_arg1 m ρ c
  dsimp only [V3, W3, hostOps1]
  generalize W2 m ρ c = W at h ⊢
  after_results; exact h
theorem w3_arg2 : V3 m ρ c main_arg2 = (m ((c : Thread nD τ).loc main_arg2)) := by
  have h : W2 m ρ c (Proc.devRef .tc main_arg2) = _ := w2_arg2 m ρ c
  dsimp only [V3, W3, hostOps1]
  generalize W2 m ρ c = W at h ⊢
  after_results; exact h
theorem w3_arg3 : V3 m ρ c main_arg3 = (m ((c : Thread nD τ).loc main_arg3)) := by
  have h : W2 m ρ c (Proc.devRef .tc main_arg3) = _ := w2_arg3 m ρ c
  dsimp only [V3, W3, hostOps1]
  generalize W2 m ρ c = W at h ⊢
  after_results; exact h
theorem w3_arg6 : V3 m ρ c main_arg6 = (m ((c : Thread nD τ).loc main_arg6)) := by
  have h : W2 m ρ c (Proc.devRef .tc main_arg6) = _ := w2_arg6 m ρ c
  dsimp only [V3, W3, hostOps1]
  generalize W2 m ρ c = W at h ⊢
  after_results; exact h
theorem w3_arg7 : V3 m ρ c main_arg7 = (m ((c : Thread nD τ).loc main_arg7)) := by
  have h : W2 m ρ c (Proc.devRef .tc main_arg7) = _ := w2_arg7 m ρ c
  dsimp only [V3, W3, hostOps1]
  generalize W2 m ρ c = W at h ⊢
  after_results; exact h
theorem w3_arg8 : V3 m ρ c main_arg8 = (m ((c : Thread nD τ).loc main_arg8)) := by
  have h : W2 m ρ c (Proc.devRef .tc main_arg8) = _ := w2_arg8 m ρ c
  dsimp only [V3, W3, hostOps1]
  generalize W2 m ρ c = W at h ⊢
  after_results; exact h
theorem w3_arg9 : V3 m ρ c main_arg9 = (m ((c : Thread nD τ).loc main_arg9)) := by
  have h : W2 m ρ c (Proc.devRef .tc main_arg9) = _ := w2_arg9 m ρ c
  dsimp only [V3, W3, hostOps1]
  generalize W2 m ρ c = W at h ⊢
  after_results; exact h
theorem w3_arg10 : V3 m ρ c main_arg10 = (m ((c : Thread nD τ).loc main_arg10)) := by
  have h : W2 m ρ c (Proc.devRef .tc main_arg10) = _ := w2_arg10 m ρ c
  dsimp only [V3, W3, hostOps1]
  generalize W2 m ρ c = W at h ⊢
  after_results; exact h
theorem w3_arg11 : V3 m ρ c main_arg11 = (m ((c : Thread nD τ).loc main_arg11)) := by
  have h : W2 m ρ c (Proc.devRef .tc main_arg11) = _ := w2_arg11 m ρ c
  dsimp only [V3, W3, hostOps1]
  generalize W2 m ρ c = W at h ⊢
  after_results; exact h

/-! ## After region 1: the second projection -/

theorem w4_v29 : V4 m ρ c main_v29 = val_main_v38 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W4_arr m ρ c 5).trans ((Cert.KernelIdeal.Reg1.arr (V3 m ρ) c).trans (by
    rw [w3_v27, w3_v16, w3_v28, w3_v11, w3_arg6]; exact (Cert.ReferenceIdeal.Stage.v38_eq _ _ _ _ _ _).symm))
theorem w4_v16 : V4 m ρ c main_v16 = val_main_v16 (F := Ideal) (m ((c : Thread nD τ).loc main_arg2)) :=
  ((W4_arr m ρ c 1).trans (((dat1 (V3 m ρ) c).arrAt_in 1 rfl _).trans (A_eq1 (V3 m ρ) c 1))).trans (w3_v16 m ρ c)
theorem w4_v11 : V4 m ρ c main_v11 = val_main_v11 (F := Ideal) (m ((c : Thread nD τ).loc main_arg1)) :=
  ((W4_arr m ρ c 3).trans (((dat1 (V3 m ρ) c).arrAt_in 3 rfl _).trans (A_eq1 (V3 m ρ) c 3))).trans (w3_v11 m ρ c)
theorem w4_arg1 : V4 m ρ c main_arg1 = (m ((c : Thread nD τ).loc main_arg1)) :=
  (W4_of_ne m ρ c main_arg1 (by decide)).trans (w3_arg1 m ρ c)
theorem w4_arg2 : V4 m ρ c main_arg2 = (m ((c : Thread nD τ).loc main_arg2)) :=
  (W4_of_ne m ρ c main_arg2 (by decide)).trans (w3_arg2 m ρ c)
theorem w4_arg3 : V4 m ρ c main_arg3 = (m ((c : Thread nD τ).loc main_arg3)) :=
  (W4_of_ne m ρ c main_arg3 (by decide)).trans (w3_arg3 m ρ c)
theorem w4_arg7 : V4 m ρ c main_arg7 = (m ((c : Thread nD τ).loc main_arg7)) :=
  (W4_of_ne m ρ c main_arg7 (by decide)).trans (w3_arg7 m ρ c)
theorem w4_arg8 : V4 m ρ c main_arg8 = (m ((c : Thread nD τ).loc main_arg8)) :=
  (W4_of_ne m ρ c main_arg8 (by decide)).trans (w3_arg8 m ρ c)
theorem w4_arg9 : V4 m ρ c main_arg9 = (m ((c : Thread nD τ).loc main_arg9)) :=
  (W4_of_ne m ρ c main_arg9 (by decide)).trans (w3_arg9 m ρ c)
theorem w4_arg10 : V4 m ρ c main_arg10 = (m ((c : Thread nD τ).loc main_arg10)) :=
  (W4_of_ne m ρ c main_arg10 (by decide)).trans (w3_arg10 m ρ c)
theorem w4_arg11 : V4 m ρ c main_arg11 = (m ((c : Thread nD τ).loc main_arg11)) :=
  (W4_of_ne m ρ c main_arg11 (by decide)).trans (w3_arg11 m ρ c)

/-! ## After the third host stretch (region 2's entry): the second aggregate, the second bias as a row -/

set_option maxHeartbeats 2000000 in
theorem w5_v39 : V5 m ρ c main_v39 = val_main_v48 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  have h29 : W4 m ρ c (Proc.devRef .tc main_v29) = _ := w4_v29 m ρ c
  have h1 : W4 m ρ c (Proc.devRef .tc main_arg1) = _ := w4_arg1 m ρ c
  have h2 : W4 m ρ c (Proc.devRef .tc main_arg2) = _ := w4_arg2 m ρ c
  dsimp only [V5, W5, hostOps2]
  generalize W4 m ρ c = W at h29 h1 h2 ⊢
  after_results
  rw [h29, h1, h2]
  unfold val_main_v48 val_main_v47 val_main_v46 val_main_v45 val_main_v44 val_main_v43 val_main_v42 val_main_v41 val_main_v40 val_main_v39 val_main_c_8 val_main_c_9 val_main_cst_10
  generalize val_main_v38 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) = y
  generalize (m ((c : Thread nD τ).loc main_arg1)) = x1
  generalize (m ((c : Thread nD τ).loc main_arg2)) = x2
  rfl
theorem w5_v40 : V5 m ρ c main_v40 = val_main_v51 (F := Ideal) (m ((c : Thread nD τ).loc main_arg7)) := by
  have h7 : W4 m ρ c (Proc.devRef .tc main_arg7) = _ := w4_arg7 m ρ c
  dsimp only [V5, W5, hostOps2]
  generalize W4 m ρ c = W at h7 ⊢
  after_results
  rw [h7]
  exact row32 _ _
theorem w5_v11 : V5 m ρ c main_v11 = val_main_v11 (F := Ideal) (m ((c : Thread nD τ).loc main_arg1)) := by
  have h : W4 m ρ c (Proc.devRef .tc main_v11) = _ := w4_v11 m ρ c
  dsimp only [V5, W5, hostOps2]
  generalize W4 m ρ c = W at h ⊢
  after_results; exact h
theorem w5_v16 : V5 m ρ c main_v16 = val_main_v16 (F := Ideal) (m ((c : Thread nD τ).loc main_arg2)) := by
  have h : W4 m ρ c (Proc.devRef .tc main_v16) = _ := w4_v16 m ρ c
  dsimp only [V5, W5, hostOps2]
  generalize W4 m ρ c = W at h ⊢
  after_results; exact h
theorem w5_arg1 : V5 m ρ c main_arg1 = (m ((c : Thread nD τ).loc main_arg1)) := by
  have h : W4 m ρ c (Proc.devRef .tc main_arg1) = _ := w4_arg1 m ρ c
  dsimp only [V5, W5, hostOps2]
  generalize W4 m ρ c = W at h ⊢
  after_results; exact h
theorem w5_arg2 : V5 m ρ c main_arg2 = (m ((c : Thread nD τ).loc main_arg2)) := by
  have h : W4 m ρ c (Proc.devRef .tc main_arg2) = _ := w4_arg2 m ρ c
  dsimp only [V5, W5, hostOps2]
  generalize W4 m ρ c = W at h ⊢
  after_results; exact h
theorem w5_arg3 : V5 m ρ c main_arg3 = (m ((c : Thread nD τ).loc main_arg3)) := by
  have h : W4 m ρ c (Proc.devRef .tc main_arg3) = _ := w4_arg3 m ρ c
  dsimp only [V5, W5, hostOps2]
  generalize W4 m ρ c = W at h ⊢
  after_results; exact h
theorem w5_arg8 : V5 m ρ c main_arg8 = (m ((c : Thread nD τ).loc main_arg8)) := by
  have h : W4 m ρ c (Proc.devRef .tc main_arg8) = _ := w4_arg8 m ρ c
  dsimp only [V5, W5, hostOps2]
  generalize W4 m ρ c = W at h ⊢
  after_results; exact h
theorem w5_arg9 : V5 m ρ c main_arg9 = (m ((c : Thread nD τ).loc main_arg9)) := by
  have h : W4 m ρ c (Proc.devRef .tc main_arg9) = _ := w4_arg9 m ρ c
  dsimp only [V5, W5, hostOps2]
  generalize W4 m ρ c = W at h ⊢
  after_results; exact h
theorem w5_arg10 : V5 m ρ c main_arg10 = (m ((c : Thread nD τ).loc main_arg10)) := by
  have h : W4 m ρ c (Proc.devRef .tc main_arg10) = _ := w4_arg10 m ρ c
  dsimp only [V5, W5, hostOps2]
  generalize W4 m ρ c = W at h ⊢
  after_results; exact h
theorem w5_arg11 : V5 m ρ c main_arg11 = (m ((c : Thread nD τ).loc main_arg11)) := by
  have h : W4 m ρ c (Proc.devRef .tc main_arg11) = _ := w4_arg11 m ρ c
  dsimp only [V5, W5, hostOps2]
  generalize W4 m ρ c = W at h ⊢
  after_results; exact h

/-! ## After region 2: the third projection -/

theorem w6_v41 : V6 m ρ c main_v41 = val_main_v57 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  (W6_arr m ρ c 5).trans ((Cert.KernelIdeal.Reg2.arr (V5 m ρ) c).trans (by
    rw [w5_v39, w5_v16, w5_v40, w5_v11, w5_arg8]; exact (Cert.ReferenceIdeal.Stage.v57_eq _ _ _ _ _ _ _ _).symm))
theorem w6_v16 : V6 m ρ c main_v16 = val_main_v16 (F := Ideal) (m ((c : Thread nD τ).loc main_arg2)) :=
  ((W6_arr m ρ c 1).trans (((dat2 (V5 m ρ) c).arrAt_in 1 rfl _).trans (A_eq2 (V5 m ρ) c 1))).trans (w5_v16 m ρ c)
theorem w6_arg1 : V6 m ρ c main_arg1 = (m ((c : Thread nD τ).loc main_arg1)) :=
  (W6_of_ne m ρ c main_arg1 (by decide)).trans (w5_arg1 m ρ c)
theorem w6_arg2 : V6 m ρ c main_arg2 = (m ((c : Thread nD τ).loc main_arg2)) :=
  (W6_of_ne m ρ c main_arg2 (by decide)).trans (w5_arg2 m ρ c)
theorem w6_arg3 : V6 m ρ c main_arg3 = (m ((c : Thread nD τ).loc main_arg3)) :=
  (W6_of_ne m ρ c main_arg3 (by decide)).trans (w5_arg3 m ρ c)
theorem w6_arg9 : V6 m ρ c main_arg9 = (m ((c : Thread nD τ).loc main_arg9)) :=
  (W6_of_ne m ρ c main_arg9 (by decide)).trans (w5_arg9 m ρ c)
theorem w6_arg10 : V6 m ρ c main_arg10 = (m ((c : Thread nD τ).loc main_arg10)) :=
  (W6_of_ne m ρ c main_arg10 (by decide)).trans (w5_arg10 m ρ c)
theorem w6_arg11 : V6 m ρ c main_arg11 = (m ((c : Thread nD τ).loc main_arg11)) :=
  (W6_of_ne m ρ c main_arg11 (by decide)).trans (w5_arg11 m ρ c)

/-! ## After the fourth host stretch (region 3's entry): the third aggregate, the third bias as a row -/

set_option maxHeartbeats 2000000 in
theorem w7_v51 : V7 m ρ c main_v51 = val_main_v67 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  have h41 : W6 m ρ c (Proc.devRef .tc main_v41) = _ := w6_v41 m ρ c
  have h1 : W6 m ρ c (Proc.devRef .tc main_arg1) = _ := w6_arg1 m ρ c
  have h2 : W6 m ρ c (Proc.devRef .tc main_arg2) = _ := w6_arg2 m ρ c
  dsimp only [V7, W7, hostOps3]
  generalize W6 m ρ c = W at h41 h1 h2 ⊢
  after_results
  rw [h41, h1, h2]
  unfold val_main_v67 val_main_v66 val_main_v65 val_main_v64 val_main_v63 val_main_v62 val_main_v61 val_main_v60 val_main_v59 val_main_v58 val_main_c_11 val_main_c_12 val_main_cst_13
  generalize val_main_v57 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) = y
  generalize (m ((c : Thread nD τ).loc main_arg1)) = x1
  generalize (m ((c : Thread nD τ).loc main_arg2)) = x2
  rfl
theorem w7_v52 : V7 m ρ c main_v52 = val_main_v70 (F := Ideal) (m ((c : Thread nD τ).loc main_arg9)) := by
  have h9 : W6 m ρ c (Proc.devRef .tc main_arg9) = _ := w6_arg9 m ρ c
  dsimp only [V7, W7, hostOps3]
  generalize W6 m ρ c = W at h9 ⊢
  after_results
  rw [h9]
  exact row16 _ _
theorem w7_v16 : V7 m ρ c main_v16 = val_main_v16 (F := Ideal) (m ((c : Thread nD τ).loc main_arg2)) := by
  have h : W6 m ρ c (Proc.devRef .tc main_v16) = _ := w6_v16 m ρ c
  dsimp only [V7, W7, hostOps3]
  generalize W6 m ρ c = W at h ⊢
  after_results; exact h
theorem w7_arg3 : V7 m ρ c main_arg3 = (m ((c : Thread nD τ).loc main_arg3)) := by
  have h : W6 m ρ c (Proc.devRef .tc main_arg3) = _ := w6_arg3 m ρ c
  dsimp only [V7, W7, hostOps3]
  generalize W6 m ρ c = W at h ⊢
  after_results; exact h
theorem w7_arg10 : V7 m ρ c main_arg10 = (m ((c : Thread nD τ).loc main_arg10)) := by
  have h : W6 m ρ c (Proc.devRef .tc main_arg10) = _ := w6_arg10 m ρ c
  dsimp only [V7, W7, hostOps3]
  generalize W6 m ρ c = W at h ⊢
  after_results; exact h
theorem w7_arg11 : V7 m ρ c main_arg11 = (m ((c : Thread nD τ).loc main_arg11)) := by
  have h : W6 m ρ c (Proc.devRef .tc main_arg11) = _ := w6_arg11 m ρ c
  dsimp only [V7, W7, hostOps3]
  generalize W6 m ρ c = W at h ⊢
  after_results; exact h

/-! ## After region 3: the last layer's node features -/

theorem w8_v53 : V8 m ρ c main_v53 = val_main_v73 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W8_arr m ρ c 3).trans ((Cert.KernelIdeal.Reg3.arr (V7 m ρ) c).trans (by
    rw [w7_v51, w7_v16, w7_v52]; exact (Cert.ReferenceIdeal.Stage.v73_eq _ _ _ _ _ _ _ _ _).symm))
theorem w8_arg3 : V8 m ρ c main_arg3 = (m ((c : Thread nD τ).loc main_arg3)) :=
  (W8_of_ne m ρ c main_arg3 (by decide)).trans (w7_arg3 m ρ c)
theorem w8_arg10 : V8 m ρ c main_arg10 = (m ((c : Thread nD τ).loc main_arg10)) :=
  (W8_of_ne m ρ c main_arg10 (by decide)).trans (w7_arg10 m ρ c)
theorem w8_arg11 : V8 m ρ c main_arg11 = (m ((c : Thread nD τ).loc main_arg11)) :=
  (W8_of_ne m ρ c main_arg11 (by decide)).trans (w7_arg11 m ρ c)

/-! ## After the last host stretch: the pooled logits -/

set_option maxHeartbeats 4000000 in
/-- The kernel program's result is the reference computation's last stage, of the same arguments. -/
theorem w9_v70 : W9 m ρ c (Proc.devRef .tc main_v70) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h53 : W8 m ρ c (Proc.devRef .tc main_v53) = _ := w8_v53 m ρ c
  have h3 : W8 m ρ c (Proc.devRef .tc main_arg3) = _ := w8_arg3 m ρ c
  have h10 : W8 m ρ c (Proc.devRef .tc main_arg10) = _ := w8_arg10 m ρ c
  have h11 : W8 m ρ c (Proc.devRef .tc main_arg11) = _ := w8_arg11 m ρ c
  dsimp only [W9, hostOps4]
  generalize W8 m ρ c = W at h53 h3 h10 h11 ⊢
  after_results
  rw [h53, h3, h10, h11]
  unfold val_main_v90 val_main_v89 val_main_v88 val_main_v87 val_main_v86 val_main_v85 val_main_v84 val_main_v83 val_main_v82 val_main_v81 val_main_v80 val_main_v79 val_main_v78 val_main_v77 val_main_v76 val_main_v75 val_main_v74 val_main_cst_14 val_main_cst_15 val_main_cst_16 val_main_cst_17
  generalize val_main_v73 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = y
  generalize (m ((c : Thread nD τ).loc main_arg3)) = x3
  generalize (m ((c : Thread nD τ).loc main_arg10)) = x10
  generalize (m ((c : Thread nD τ).loc main_arg11)) = x11
  rfl

end Cert.KernelIdeal.Chain
end
-- ==== Proof.lean ====
/-
  A three-layer graph convolution with mean pooling and a linear read-out, as a jax program of four Pallas regions among
  host operations, against the same network in plain jnp. At the ideal instance (floats are extended reals, every
  operation exact, a change of float format the identity) the two programs compute one function of the arguments:

  * the degree norms, every gather and scatter-add along the edges, the pooling and the read-out are the SAME host
    operations in both programs, applied to operands that are shown equal;
  * each Pallas region's output array is a whole-array function of the arrays it is entered with (Spec.lean): the
    row-scaled projection `(x · diag n) @ w` for the first region; for the next two the previous aggregate scaled by the
    destination norm, biased, rectified, rescaled by the source norm and projected; for the last the rectified aggregate
    alone. A region's 32 grid points write 32 disjoint row blocks that cover the array, and at an entry the kernel's
    block matrix product over a zero accumulator is the plain sum over the contracted axis (Region0 … Region3);
  * the reference's `dot_general` over broadcast operands is the same function index by index (RefStages), and the
    kernel's bias reshaped to a row is the reference's bias broadcast to a row.

  No algebraic law beyond reading both sides at an index is needed, so the precondition (finite inputs) is never opened.
  Chain.lean carries the identification through the nine segments of the kernel program; KRun.lean is the kernel
  program's run with its result buffer named. The three frames are the generated ones (the reference's is its generated
  run with the result dropped); the idealization rewrote nothing, so `preserves` is `True`.
-/
import proofs.«104229_j63204738728607_1_alg».proof.Defs
import proofs.«104229_j63204738728607_1_alg».proof.Proof.Gen.Kernel
import proofs.«104229_j63204738728607_1_alg».proof.Proof.Gen.Kernel.Skeleton
import proofs.«104229_j63204738728607_1_alg».proof.Proof.Gen.Kernel.Launch
import proofs.«104229_j63204738728607_1_alg».proof.Proof.Gen.Kernel.Points
import proofs.«104229_j63204738728607_1_alg».proof.Proof.Gen.Kernel.Frame
import proofs.«104229_j63204738728607_1_alg».proof.Proof.Gen.KernelIdeal
import proofs.«104229_j63204738728607_1_alg».proof.Proof.Gen.KernelIdeal.Skeleton
import proofs.«104229_j63204738728607_1_alg».proof.Proof.Gen.KernelIdeal.Launch
import proofs.«104229_j63204738728607_1_alg».proof.Proof.Gen.KernelIdeal.Points
import proofs.«104229_j63204738728607_1_alg».proof.Proof.Gen.KernelIdeal.Frame
import proofs.«104229_j63204738728607_1_alg».proof.Proof.Gen.ReferenceIdeal
import proofs.«104229_j63204738728607_1_alg».proof.Proof.Gen.Pre_finite_inputs
import proofs.«104229_j63204738728607_1_alg».proof.Proof.Gen.ReferenceIdeal.Run
import proofs.«104229_j63204738728607_1_alg».proof.Proof.Gen.ReferenceIdeal.Read
import proofs.«104229_j63204738728607_1_alg».proof.Proof.KRun
import proofs.«104229_j63204738728607_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same logits: the kernel program's result is
    the reference's last stage of the kernel's arguments, and the reference's result is that stage of its own. -/
theorem algebraic : Cert.algebraic_KernelIdeal_ReferenceIdeal := by
  intro m ρ m' ρ' _ hagree
  refine ⟨fun c => Cert.KernelIdeal.Gen.W9 m ρ c (Proc.devRef .tc Cert.KernelIdeal.main_v70),
    Cert.KernelIdeal.Out.run_out m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v90_eq, h0, h1, h2, h3, h4, h5, h6, h7, h8, h9, h10, h11]
  exact (Cert.KernelIdeal.Chain.w9_v70 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
